-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1024x16 : Shape := ⟨2, ![1024, 16]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S1024x16 .f32) (main_v33 : IVec S_ 1) : IVec S_ 1 :=
  let main_v34 : FVec F S1024x16 .f32 := Host.absf main_arg7
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  main_v38

def fn_part1 {F : FTy → Type} [FloatOps F] (main_arg4 : FVec F S16 .f32) (main_arg5 : FVec F S16x1024 .f32) (main_arg6 : FVec F S16 .f32) (main_arg7 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_v33

def fn {F : FTy → Type} [FloatOps F] (main_arg0 : FVec F S2x4096x1024 .f32) (main_arg1 : FVec F S1024x1024 .f32) (main_arg2 : FVec F S1024 .f32) (main_arg3 : FVec F S16x1024 .f32) (main_arg4 : FVec F S16 .f32) (main_arg5 : FVec F S16x1024 .f32) (main_arg6 : FVec F S16 .f32) (main_arg7 : FVec F S1024x16 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_arg7 main_v13 main_v16
-- ==== Kernel.lean ====
abbrev S2x4096x1024 : Shape := ⟨3, ![2, 4096, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1024x16 : Shape := ⟨2, ![1024, 16]⟩
abbrev S8192x1024 : Shape := ⟨2, ![8192, 1024]⟩
abbrev S1x1024 : Shape := ⟨2, ![1, 1024]⟩
abbrev S_ : Shape := ⟨0, ![]⟩
abbrev S1024x256 : Shape := ⟨2, ![1024, 256]⟩
abbrev S1 : Shape := ⟨1, ![1]⟩
abbrev S1x256 : Shape := ⟨2, ![1, 256]⟩
abbrev S1x16 : Shape := ⟨2, ![1, 16]⟩
abbrev S1024x128 : Shape := ⟨2, ![1024, 128]⟩
abbrev S1024x1 : Shape := ⟨2, ![1024, 1]⟩

abbrev nBuf : Space → Nat
  | .hbm => 36
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S16x1024, .f32⟩
  | .hbm, ⟨6, _⟩ => ⟨S16, .f32⟩
  | .hbm, ⟨7, _⟩ => ⟨S1024x16, .f32⟩
  | .hbm, ⟨8, _⟩ => ⟨S8192x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024x16, .f32⟩
  | .hbm, ⟨13, _⟩ => ⟨S1024x16, .bf16⟩
  | .hbm, ⟨14, _⟩ => ⟨S1024x16, .f32⟩
  | .hbm, ⟨15, _⟩ => ⟨S1024x16, .bf16⟩
  | .hbm, ⟨16, _⟩ => ⟨S_, .bf16⟩
  | .hbm, ⟨17, _⟩ => ⟨S1024x256, .bf16⟩
  | .hbm, ⟨18, _⟩ => ⟨S_, .i32⟩
  | .hbm, ⟨19, _⟩ => ⟨S1, .i32⟩
  | .hbm, ⟨20, _⟩ => ⟨S1024x256, .bf16⟩
  | .hbm, ⟨21, _⟩ => ⟨S_, .i32⟩
  | .hbm, ⟨22, _⟩ => ⟨S1, .i32⟩
  | .hbm, ⟨23, _⟩ => ⟨S1024x256, .bf16⟩
  | .hbm, ⟨24, _⟩ => ⟨S_, .f32⟩
  | .hbm, ⟨25, _⟩ => ⟨S1x256, .f32⟩
  | .hbm, ⟨26, _⟩ => ⟨S1x16, .f32⟩
  | .hbm, ⟨27, _⟩ => ⟨S_, .i32⟩
  | .hbm, ⟨28, _⟩ => ⟨S1, .i32⟩
  | .hbm, ⟨29, _⟩ => ⟨S1x256, .f32⟩
  | .hbm, ⟨30, _⟩ => ⟨S1x16, .f32⟩
  | .hbm, ⟨31, _⟩ => ⟨S_, .i32⟩
  | .hbm, ⟨32, _⟩ => ⟨S1, .i32⟩
  | .hbm, ⟨33, _⟩ => ⟨S1x256, .f32⟩
  | .hbm, ⟨34, _⟩ => ⟨S8192x1024, .f32⟩
  | .hbm, ⟨35, _⟩ => ⟨S2x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S1024x1024, .f32⟩
  | .local _ .vmem, ⟨7, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x4096x1024_S8192x1024 : S2x4096x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  transposes_S16x1024_S1024x16_1_0 : S16x1024.Transposes [1, 0] S1024x16
  bcast_S_S1024x256 : S_.BroadcastsInDim S1024x256 (![] : Fin 0 → Fin S1024x256.rank)
  bcast_S_S1 : S_.BroadcastsInDim S1 (![] : Fin 0 → Fin S1.rank)
  bcast_S_S1x256 : S_.BroadcastsInDim S1x256 (![] : Fin 0 → Fin S1x256.rank)
  shapeCasts_S16_S1x16 : S16.ShapeCasts S1x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x256_o0_0_S1024x128 : S1024x256.Slices ![0, 0] S1024x128
  slices_S1024x256_o0_128_S1024x128 : S1024x256.Slices ![0, 128] S1024x128
  reduces_S1024x128_S1024 : S1024x128.Reduces [1] S1024
  shapeCasts_S1024_S1024x1 : S1024.ShapeCasts S1024x1
  broadcasts_S1024x1_S1024x1024 : S1024x1.Broadcasts S1024x1024
  shapeCasts_S8192x1024_S2x4096x1024 : S8192x1024.ShapeCasts S2x4096x1024
  scatter_S1024x256_S1_S1024x16_01_n_1_0_wf : ScatterDims.WF S1024x256 S1 S1024x16 [0, 1] [] [1] 0
  scatter_S1x256_S1_S1x16_01_n_1_0_wf : ScatterDims.WF S1x256 S1 S1x16 [0, 1] [] [1] 0
  dot_S1024x1024_S1024x1024_S1024x1024_1_0_0_1_n_n_wf : DotDims.WF S1024x1024 S1024x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def scatter_S1024x256_S1_S1024x16_01_n_1_0 : ScatterDims S1024x256 S1 S1024x16 where
  updateWindowDims := [0, 1]
  insertedWindowDims := []
  scatterDimsToOperandDims := [1]
  indexVectorDim := 0
  wf := scatter_S1024x256_S1_S1024x16_01_n_1_0_wf
def scatter_S1x256_S1_S1x16_01_n_1_0 : ScatterDims S1x256 S1 S1x16 where
  updateWindowDims := [0, 1]
  insertedWindowDims := []
  scatterDimsToOperandDims := [1]
  indexVectorDim := 0
  wf := scatter_S1x256_S1_S1x16_01_n_1_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1024x16 : Shape := ⟨2, ![1024, 16]⟩
abbrev S2x4096x16 : Shape := ⟨3, ![2, 4096, 16]⟩
abbrev S1x1x16 : Shape := ⟨3, ![1, 1, 16]⟩
abbrev S1x1x1024 : Shape := ⟨3, ![1, 1, 1024]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S16x1024, .f32⟩
  | .hbm, ⟨6, _⟩ => ⟨S16, .f32⟩
  | .hbm, ⟨7, _⟩ => ⟨S1024x16, .f32⟩
  | .hbm, ⟨8, _⟩ => ⟨S2x4096x16, .f32⟩
  | .hbm, ⟨9, _⟩ => ⟨S1x1x16, .f32⟩
  | .hbm, ⟨10, _⟩ => ⟨S2x4096x16, .f32⟩
  | .hbm, ⟨11, _⟩ => ⟨S2x4096x16, .f32⟩
  | .hbm, ⟨12, _⟩ => ⟨S2x4096x16, .f32⟩
  | .hbm, ⟨13, _⟩ => ⟨S1x1x16, .f32⟩
  | .hbm, ⟨14, _⟩ => ⟨S2x4096x16, .f32⟩
  | .hbm, ⟨15, _⟩ => ⟨S2x4096x16, .f32⟩
  | .hbm, ⟨16, _⟩ => ⟨S2x4096x1024, .f32⟩
  | .hbm, ⟨17, _⟩ => ⟨S1x1x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S2x4096x1024, .i1⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x16, .f32⟩
  | .hbm, ⟨35, _⟩ => ⟨S_, .f32⟩
  | .hbm, ⟨36, _⟩ => ⟨S2x4096, .f32⟩
  | .hbm, ⟨37, _⟩ => ⟨S2x4096x1024, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S2x4096x16_0_1_2 : S1x1x16.BroadcastsInDim S2x4096x16 (![0, 1, 2] : Fin 3 → Fin S2x4096x16.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  bcast_S_S2x4096x1024 : S_.BroadcastsInDim S2x4096x1024 (![] : Fin 0 → Fin S2x4096x1024.rank)
  reducesTo_S2x4096x16_S2x4096_d2 : S2x4096x16.ReducesTo [2] S2x4096
  h_S_ : 0 < S_.numel
  bcast_S2x4096_S2x4096x1_0_1 : S2x4096.BroadcastsInDim S2x4096x1 (![0, 1] : Fin 2 → Fin S2x4096x1.rank)
  bcast_S2x4096x1_S2x4096x1024_0_1_2 : S2x4096x1.BroadcastsInDim S2x4096x1024 (![0, 1, 2] : Fin 3 → Fin S2x4096x1024.rank)
  dot_S2x4096x1024_S16x1024_S2x4096x16_2_1_01_0_n_n_wf : DotDims.WF S2x4096x1024 S16x1024 S2x4096x16 [2] [1] [0, 1] [0] [] []
  dot_S2x4096x1024_S1024x1024_S2x4096x1024_2_1_01_0_n_n_wf : DotDims.WF S2x4096x1024 S1024x1024 S2x4096x1024 [2] [1] [0, 1] [0] [] []

variable [Facts₀]

def dot_S2x4096x1024_S16x1024_S2x4096x16_2_1_01_0_n_n : DotDims S2x4096x1024 S16x1024 S2x4096x16 where
  lhsContracting := [2]
  rhsContracting := [1]
  lhsNonContracting := [0, 1]
  rhsNonContracting := [0]
  lhsBatch := []
  rhsBatch := []
  wf := dot_S2x4096x1024_S16x1024_S2x4096x16_2_1_01_0_n_n_wf
def dot_S2x4096x1024_S1024x1024_S2x4096x1024_2_1_01_0_n_n : DotDims S2x4096x1024 S1024x1024 S2x4096x1024 where
  lhsContracting := [2]
  rhsContracting := [1]
  lhsNonContracting := [0, 1]
  rhsNonContracting := [0]
  lhsBatch := []
  rhsBatch := []
  wf := dot_S2x4096x1024_S1024x1024_S2x4096x1024_2_1_01_0_n_n_wf

class Facts : Prop extends Facts₀ where

variable [Facts]
-- ==== Proof.Spec.lean ====
/-
  The function both programs compute, on the extended reals.

  For an input `x` of extent [2, 4096, 1024], three weight matrices `W1` [1024, 1024], `W2`, `W3` [16, 1024] and their
  biases, write `proj x W β (b, l) n = ∑ₖ x (b, l, k) · W (n, k) + β n` for one entry of a row of `x` projected by `W`.
  The result at `(b, l, e)` is

      x (b, l, e) · softplus (proj x W1 b1 (b, l) e) · ∑ₙ proj x W3 b3 (b, l) n · proj x W2 b2 (b, l) n,

  the products grouped to the left and `n` ranging over the sixteen rows of `W2` and `W3`.
  `softplus z = max z 0 + log (1 + exp (−|z|))`, with `|z| = max z (−z)`; both programs reach it through a guard
  `z − 0 ≠ z − 0` that never fires on the extended reals, and one of them writes `−|z|` as `0 − |z|`.

  Also here: a sum over `a + b` lanes whose last `b` terms vanish is the sum over the first `a`.
-/
import Idealize.ShloMosaic.PureOps.Ideal
import Idealize.ShloMosaic.PureOps.Ideal.Laws
import Idealize.ShloMosaic.Lib.ValueIdx

noncomputable section

open scoped BigOperators

namespace S6Spec

open Idealize.ShloMosaic Idealize.ShloMosaic.ValueIdx

/-- The extent of the input and of the result. -/
abbrev SX : Shape := ⟨3, ![2, 4096, 1024]⟩

/-- Lane `l` of the first half of 256 lanes. -/
abbrev lo (l : Fin 128) : Fin 256 := ⟨l.val, Nat.lt_of_lt_of_le l.isLt (by decide)⟩
/-- Lane `l` of the second half of 256 lanes. -/
abbrev hi (l : Fin 128) : Fin 256 := ⟨128 + l.val, Nat.add_lt_add_left l.isLt 128⟩

/-- `max z 0 + log (1 + exp (−|z|))`. -/
def softplus (z : EReal) : EReal := max z 0 + Ideal.log1p (Ideal.exp (-(max z (-z))))

/-- One entry of a row of `x` projected by `W`, plus the bias: `∑ₖ x (b, l, k) · W (n, k) + β n`. -/
def proj {N : Nat} (x : SX.Idx → EReal) (W : (⟨2, ![N, 1024]⟩ : Shape).Idx → EReal)
    (β : (⟨1, ![N]⟩ : Shape).Idx → EReal) (b : Fin 2) (l : Fin 4096) (n : Fin N) : EReal :=
  (∑ k : Fin 1024, x (ix3 b l k) * W (ix2 n k)) + β (ix1 n)

/-- The result array as one function of the seven argument arrays it depends on. -/
def G (x : SX.Idx → EReal) (W1 : (⟨2, ![1024, 1024]⟩ : Shape).Idx → EReal) (b1 : (⟨1, ![1024]⟩ : Shape).Idx → EReal)
    (W2 : (⟨2, ![16, 1024]⟩ : Shape).Idx → EReal) (b2 : (⟨1, ![16]⟩ : Shape).Idx → EReal)
    (W3 : (⟨2, ![16, 1024]⟩ : Shape).Idx → EReal) (b3 : (⟨1, ![16]⟩ : Shape).Idx → EReal) : SX.Idx → EReal :=
  fun i => (x i * softplus (proj x W1 b1 (i 0) (i 1) (i 2)))
    * ∑ n : Fin 16, proj x W3 b3 (i 0) (i 1) n * proj x W2 b2 (i 0) (i 1) n

/-- What the kernel's body computes at row `r`, column `q` from the arrays it is handed: `A0` the rows of the input, `A1`
    the first weight matrix transposed, `A2` its bias as a row, `A3` the two small weight matrices transposed and laid side
    by side in 256 lanes (the second starting at lane 128) and `A4` their biases laid out the same way; the sum runs over
    the 128 lanes of a half. -/
def rowVal {Rn : Nat} (A0 : (⟨2, ![Rn, 1024]⟩ : Shape).Idx → EReal) (A1 : (⟨2, ![1024, 1024]⟩ : Shape).Idx → EReal)
    (A2 : (⟨2, ![1, 1024]⟩ : Shape).Idx → EReal) (A3 : (⟨2, ![1024, 256]⟩ : Shape).Idx → EReal)
    (A4 : (⟨2, ![1, 256]⟩ : Shape).Idx → EReal) (r : Fin Rn) (q : Fin 1024) : EReal :=
  (A0 (ix2 r q) * softplus ((∑ k : Fin 1024, A0 (ix2 r k) * A1 (ix2 k q)) + A2 (ix2 (0 : Fin 1) q)))
    * ∑ l : Fin 128,
        ((∑ k : Fin 1024, A0 (ix2 r k) * A3 (ix2 k (lo l))) + A4 (ix2 (0 : Fin 1) (lo l)))
      * ((∑ k : Fin 1024, A0 (ix2 r k) * A3 (ix2 k (hi l))) + A4 (ix2 (0 : Fin 1) (hi l)))

/-- The comparison `d ≠ d` is the zero bit, for either spelling of "not equal". -/
theorem cmp_ne_self (d : EReal) : Ideal.cmp .une d d = 0#1 ∧ Ideal.cmp .one d d = 0#1 := by
  constructor <;> simp [Ideal.cmp]

/-- Softplus as the reference spells it: the guard picks the third operand, `z − 0 = z`, and the exponent is `−|z|`. -/
theorem softplus_neg (z : EReal) :
    Scalar.select (Ideal.cmp .une (z - Ideal.ofBits .f32 0x00000000#32) (z - Ideal.ofBits .f32 0x00000000#32))
      (z + Ideal.ofBits .f32 0x00000000#32)
      (max z (Ideal.ofBits .f32 0x00000000#32)
        + Ideal.log1p (Ideal.exp (-(max (z - Ideal.ofBits .f32 0x00000000#32) (-(z - Ideal.ofBits .f32 0x00000000#32))))))
      = softplus z := by
  rw [Ideal.ofBits_zero_f32, sub_zero, (cmp_ne_self z).1, select_zero]
  rfl

/-- Softplus as the kernel spells it: the same, with the exponent written `0 − |z|`. -/
theorem softplus_zero_sub (z : EReal) :
    Scalar.select (Ideal.cmp .one (z - Ideal.ofBits .f32 0x00000000#32) (z - Ideal.ofBits .f32 0x00000000#32))
      (z + Ideal.ofBits .f32 0x00000000#32)
      (max z (Ideal.ofBits .f32 0x00000000#32)
        + Ideal.log1p (Ideal.exp (Ideal.ofBits .f32 0x00000000#32
            - (max (z - Ideal.ofBits .f32 0x00000000#32) (-(z - Ideal.ofBits .f32 0x00000000#32))))))
      = softplus z := by
  rw [Ideal.ofBits_zero_f32, sub_zero, (cmp_ne_self z).2, select_zero, zero_sub]
  rfl

/-- A sum over `a + b` lanes whose last `b` terms vanish is the sum over the first `a`. -/
theorem sum_padded {M : Type} [AddCommMonoid M] {a b : Nat} (f : Fin (a + b) → M)
    (h : ∀ j : Fin b, f (Fin.natAdd a j) = 0) : ∑ l, f l = ∑ n : Fin a, f (Fin.castAdd b n) := by
  rw [Fin.sum_univ_add, Finset.sum_eq_zero (fun j _ => h j), add_zero]

end S6Spec

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Body.lean ====
/-
  The kernel body's one stored value, read at an entry, on the extended reals.

  The value is one pure term over the five loaded blocks x0 [1024, 1024], x1 [1024, 1024], x2 [1, 1024],
  x3 [1024, 256], x4 [1, 256]. Write z (p, q) = ∑ₖ x0 (p, k) · x1 (k, q) + x2 (0, q) for the first product plus its
  bias row, and y (p, c) = ∑ₖ x0 (p, k) · x3 (k, c) + x4 (0, c) for the second. The term is

      (x0 (p, q) · softplus (z (p, q))) · ∑ₗ y (p, l) · y (p, 128 + l),      l over 128 lanes:

  casts to the same shape and the narrowing of x0 are identities here, a product into the zero accumulator is the plain
  sum over the contracted coordinate, a bias row is broadcast down the rows, the two halves of y are column slices,
  and their lane sum is kept as a column and broadcast along the rows.
-/
import proofs.«137741_j25907242729655_2_alg».proof.Proof.Gen.KernelIdeal.Skeleton
import proofs.«137741_j25907242729655_2_alg».proof.Proof.Spec
import proofs.«137741_j25907242729655_2_alg».proof.Proof.LibPlainDot
import proofs.«137741_j25907242729655_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal.Gen

/-- The first product plus its bias row, at `(p, q)`: `∑ₖ x0 (p, k) · x1 (k, q) + x2 (0, q)`. -/
theorem proj1_apply (x0 : FVec Ideal S1024x1024 .f32) (x1 : FVec Ideal S1024x1024 .bf16) (x2 : FVec Ideal S1x1024 .f32)
    (p q : Fin 1024) :
    addf (matmul dot_S1024x1024_S1024x1024_S1024x1024_1_0_0_1_n_n none (truncf .bf16 x0 bitsLt_bf16_f32) x1
            (constant (F := Ideal) S1024x1024 .f32 0x00000000#32))
        (broadcastTo S1024x1024 x2 broadcasts_S1x1024_S1024x1024) (ix2 p q)
      = (∑ k : Fin 1024, x0 (ix2 p k) * x1 (ix2 k q)) + x2 (ix2 (0 : Fin 1) q) := by
  refine congrArg₂ (fun a b : EReal => a + b) ?_ ?_
  · exact PlainDot.matmul_zero_apply (M := 1024) (K := 1024) (N := 1024)
      dot_S1024x1024_S1024x1024_S1024x1024_1_0_0_1_n_n rfl none (truncf .bf16 x0 bitsLt_bf16_f32) x1 (ix2 p q)
  · exact broadcastTo_1b_ab_apply x2 broadcasts_S1x1024_S1024x1024 p q

/-- The second product plus its bias row, at `(p, c)`: `∑ₖ x0 (p, k) · x3 (k, c) + x4 (0, c)`. -/
theorem proj2_apply (x0 : FVec Ideal S1024x1024 .f32) (x3 : FVec Ideal S1024x256 .bf16) (x4 : FVec Ideal S1x256 .f32)
    (p : Fin 1024) (c : Fin 256) :
    addf (matmul dot_S1024x1024_S1024x256_S1024x256_1_0_0_1_n_n none (truncf .bf16 x0 bitsLt_bf16_f32) x3
            (constant (F := Ideal) S1024x256 .f32 0x00000000#32))
        (broadcastTo S1024x256 x4 broadcasts_S1x256_S1024x256) (ix2 p c)
      = (∑ k : Fin 1024, x0 (ix2 p k) * x3 (ix2 k c)) + x4 (ix2 (0 : Fin 1) c) := by
  refine congrArg₂ (fun a b : EReal => a + b) ?_ ?_
  · exact PlainDot.matmul_zero_apply (M := 1024) (K := 1024) (N := 256)
      dot_S1024x1024_S1024x256_S1024x256_1_0_0_1_n_n rfl none (truncf .bf16 x0 bitsLt_bf16_f32) x3 (ix2 p c)
  · exact broadcastTo_1b_ab_apply x4 broadcasts_S1x256_S1024x256 p c

/-- The two column halves of a `[1024, 256]` array multiplied lane by lane, summed over the 128 lanes, the sum kept as a
    column and broadcast along the rows: at `(p, q)` it is `∑ₗ y (p, l) · y (p, 128 + l)`, whatever `q`. -/
theorem gate_apply (y : FVec Ideal S1024x256 .f32) (p q : Fin 1024) :
    broadcastTo S1024x1024
        (shapeCast S1024x1
          (multiReduction (F := Ideal) .add [1] S1024
            (mulf (extractStridedSlice S1024x128 ![0, 0] y slices_S1024x256_o0_0_S1024x128)
              (extractStridedSlice S1024x128 ![0, 128] y slices_S1024x256_o0_128_S1024x128))
            0x00000000#32 reduces_S1024x128_S1024 (.inl rfl) rfl)
          shapeCasts_S1024_S1024x1)
        broadcasts_S1024x1_S1024x1024 (ix2 p q)
      = ∑ l : Fin 128, y (ix2 p (S6Spec.lo l)) * y (ix2 p (S6Spec.hi l)) := by
  refine (broadcastTo_a1_ab_apply _ broadcasts_S1024x1_S1024x1024 p q).trans ?_
  refine (shapeCast_a_a1_apply _ shapeCasts_S1024_S1024x1 p (0 : Fin 1)).trans ?_
  refine (multiReduction_add_axis1_apply _ reduces_S1024x128_S1024 (.inl rfl) rfl p).trans ?_
  refine Finset.sum_congr rfl fun l _ => ?_
  exact congrArg₂ (fun a b : EReal => a * b)
    (slice2_axis1_apply 0 y slices_S1024x256_o0_0_S1024x128 p l (S6Spec.lo l) (Nat.zero_add _).symm)
    (slice2_axis1_apply 128 y slices_S1024x256_o0_128_S1024x128 p l (S6Spec.hi l) rfl)

/-- The pointwise part: an array times the guarded softplus of another, times a third, at one index. -/
theorem gated_apply (x z g : FVec Ideal S1024x1024 .f32) (i : S1024x1024.Idx) :
    mulf
        (mulf x
          (select
            (cmpf .one (subf z (broadcast S1024x1024 (Scalar.ofBits (F := Ideal) .f32 0x00000000#32)))
              (subf z (broadcast S1024x1024 (Scalar.ofBits (F := Ideal) .f32 0x00000000#32))))
            (addf z (broadcast S1024x1024 (Scalar.ofBits (F := Ideal) .f32 0x00000000#32)))
            (addf (maximumf z (broadcast S1024x1024 (Scalar.ofBits (F := Ideal) .f32 0x00000000#32)))
              (log1p
                (exp
                  (subf (broadcast S1024x1024 (Scalar.ofBits (F := Ideal) .f32 0x00000000#32))
                    (absf (subf z (broadcast S1024x1024 (Scalar.ofBits (F := Ideal) .f32 0x00000000#32))))))))))
        g i
      = (x i * S6Spec.softplus (z i)) * g i :=
  congrArg (fun t : EReal => (x i * t) * g i) (S6Spec.softplus_zero_sub (z i))

/-- The body's stored value at `(p, q)`. -/
theorem pay_apply (x0 : Vec Ideal S1024x1024 .f32) (x1 : Vec Ideal S1024x1024 .bf16) (x2 : Vec Ideal S1x1024 .f32)
    (x3 : Vec Ideal S1024x256 .bf16) (x4 : Vec Ideal S1x256 .f32) (p q : Fin 1024) :
    k0_pay1 (F := Ideal) x0 x1 x2 x3 x4 (ix2 p q)
      = (x0 (ix2 p q) * S6Spec.softplus ((∑ k : Fin 1024, x0 (ix2 p k) * x1 (ix2 k q)) + x2 (ix2 (0 : Fin 1) q)))
        * ∑ l : Fin 128,
            ((∑ k : Fin 1024, x0 (ix2 p k) * x3 (ix2 k (S6Spec.lo l))) + x4 (ix2 (0 : Fin 1) (S6Spec.lo l)))
          * ((∑ k : Fin 1024, x0 (ix2 p k) * x3 (ix2 k (S6Spec.hi l))) + x4 (ix2 (0 : Fin 1) (S6Spec.hi l))) := by
  unfold k0_pay1
  rw [shapeCast_self x0, shapeCast_self x1, shapeCast_self x2, shapeCast_self x3, shapeCast_self x4]
  refine (gated_apply _ _ _ (ix2 p q)).trans ?_
  refine congrArg₂ (fun a b : EReal => a * b)
    (congrArg (fun t : EReal => x0 (ix2 p q) * S6Spec.softplus t) (proj1_apply x0 x1 x2 p q)) ?_
  refine (gate_apply _ p q).trans ?_
  refine Finset.sum_congr rfl fun l _ => ?_
  exact congrArg₂ (fun a b : EReal => a * b) (proj2_apply x0 x3 x4 p (S6Spec.lo l)) (proj2_apply x0 x3 x4 p (S6Spec.hi l))

end Cert.KernelIdeal.Body

end
-- ==== Proof.Array.lean ====
/-
  From blocks to the array.

  The region's output array has 8192 rows of 1024 entries and is written back in eight blocks of 1024 rows: grid point
  `t` computes rows `1024·t … 1024·t + 1023`. At that point the body is handed rows `1024·t …` of the staged input (the
  input window moves with the output window) and the four weight and bias arrays whole (their windows stay at block
  (0, 0)). So what point `t` writes back is block `t` of ONE function of the five staged arrays — row `r`, column `q` of
  it is `S6Spec.rowVal` of those arrays at `(r, q)` — and since the eight blocks cover the array, the array ends holding
  that function.
-/
import proofs.«137741_j25907242729655_2_alg».proof.Proof.Gen.KernelIdeal.Frame
import proofs.«137741_j25907242729655_2_alg».proof.Proof.Spec
import proofs.«137741_j25907242729655_2_alg».proof.Proof.Body
import Idealize.ShloMosaic.Lib.Pipeline.Value
import Idealize.ShloMosaic.Lib.ValueIdx

set_option maxRecDepth 16384

noncomputable section

open scoped BigOperators

namespace S6Spec

open Idealize.ShloMosaic Idealize.ShloMosaic.ValueIdx

/-- `rowVal` reads its five arrays only along one row of the first and at whole entries of the others: arrays that
    agree there give the same value. -/
theorem rowVal_congr {Rn Rn' : Nat} (A0 : (⟨2, ![Rn, 1024]⟩ : Shape).Idx → EReal) (A0' : (⟨2, ![Rn', 1024]⟩ : Shape).Idx → EReal)
    (A1 A1' : (⟨2, ![1024, 1024]⟩ : Shape).Idx → EReal) (A2 A2' : (⟨2, ![1, 1024]⟩ : Shape).Idx → EReal)
    (A3 A3' : (⟨2, ![1024, 256]⟩ : Shape).Idx → EReal) (A4 A4' : (⟨2, ![1, 256]⟩ : Shape).Idx → EReal)
    (r : Fin Rn) (r' : Fin Rn') (q : Fin 1024)
    (h0 : ∀ k : Fin 1024, A0 (ix2 r k) = A0' (ix2 r' k))
    (h1 : ∀ k e : Fin 1024, A1 (ix2 k e) = A1' (ix2 k e))
    (h2 : ∀ e : Fin 1024, A2 (ix2 (0 : Fin 1) e) = A2' (ix2 (0 : Fin 1) e))
    (h3 : ∀ (k : Fin 1024) (e : Fin 256), A3 (ix2 k e) = A3' (ix2 k e))
    (h4 : ∀ e : Fin 256, A4 (ix2 (0 : Fin 1) e) = A4' (ix2 (0 : Fin 1) e)) :
    rowVal A0 A1 A2 A3 A4 r q = rowVal A0' A1' A2' A3' A4' r' q := by
  unfold rowVal
  simp only [h0, h1, h2, h3, h4]

end S6Spec

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The index maps, decided over the eight grid points: the input's and the output's block row is the point's number,
    every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 8 := lt_of_lt_of_eq t.isLt N_0

/-- The output array as one function of the five staged arrays. -/
def outArr (c : Dev nD) : S8192x1024.Idx → EReal := fun i =>
  S6Spec.rowVal (V m c main_v0) (V m c main_v2) (V m c main_v3) (V m c main_v12) (V m c main_v19) (i 0) (i 1)

/-- Row `p` of the input's block at point `t` is row `1024·t + p` of the staged input. -/
theorem iblk0_apply (c : Dev nD) (t : Fin cfg0.N) (p k : Fin 1024) :
    iblk m c 0 t (ix2 p k)
      = (V m c main_v0 : S8192x1024.Idx → EReal) (ix2 ⟨t.val * 1024 + p.val, by have := point_lt t; have := p.isLt; omega⟩ k) := by
  obtain ⟨e0, e1, -⟩ := idx_facts t
  show (V m c main_v0 : S8192x1024.Idx → EReal) (((cfg0.win 0).blk t).view.emb (ix2 p k)) = _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The other four windows hold their arrays whole at every point. -/
theorem iblk1_apply (c : Dev nD) (t : Fin cfg0.N) (k e : Fin 1024) :
    iblk m c 1 t (ix2 k e) = (V m c main_v2 : S1024x1024.Idx → EReal) (ix2 k e) := by
  obtain ⟨-, -, e0, e1, -⟩ := idx_facts t
  show (V m c main_v2 : S1024x1024.Idx → EReal) (((cfg0.win 1).blk t).view.emb (ix2 k e)) = _
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * e.val = e.val; omega

theorem iblk2_apply (c : Dev nD) (t : Fin cfg0.N) (e : Fin 1024) :
    iblk m c 2 t (ix2 (0 : Fin 1) e) = (V m c main_v3 : S1x1024.Idx → EReal) (ix2 (0 : Fin 1) e) := by
  obtain ⟨-, -, -, -, e0, e1, -⟩ := idx_facts t
  show (V m c main_v3 : S1x1024.Idx → EReal) (((cfg0.win 2).blk t).view.emb (ix2 (0 : Fin 1) e)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * e.val = e.val; omega

theorem iblk3_apply (c : Dev nD) (t : Fin cfg0.N) (k : Fin 1024) (e : Fin 256) :
    iblk m c 3 t (ix2 k e) = (V m c main_v12 : S1024x256.Idx → EReal) (ix2 k e) := by
  obtain ⟨-, -, -, -, -, -, e0, e1, -⟩ := idx_facts t
  show (V m c main_v12 : S1024x256.Idx → EReal) (((cfg0.win 3).blk t).view.emb (ix2 k e)) = _
  refine congrArg _ (funext fun a => Fin.ext ?_)
  match a with
  | ⟨0, _⟩ => show win0_3.index t (0 : Fin 2) * 1024 + 1 * k.val = k.val; omega
  | ⟨1, _⟩ => show win0_3.index t (1 : Fin 2) * 256 + 1 * e.val = e.val; omega

theorem iblk4_apply (c : Dev nD) (t : Fin cfg0.N) (e : Fin 256) :
    iblk m c 4 t (ix2 (0 : Fin 1) e) = (V m c main_v19 : S1x256.Idx → EReal) (ix2 (0 : Fin 1) e) := by
  obtain ⟨-, -, -, -, -, -, -, -, e0, e1, -⟩ := idx_facts t
  show (V m c main_v19 : S1x256.Idx → EReal) (((cfg0.win 4).blk t).view.emb (ix2 (0 : Fin 1) e)) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * e.val = e.val; omega

/-- WHAT POINT `t` WRITES BACK is block `t` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero offsets_zero]
  simp only [View.ld_unit_zero (S := S1024x1024) offsets_zero, View.ld_unit_zero (S := S1x1024) offsets_zero,
    View.ld_unit_zero (S := S1024x256) offsets_zero, View.ld_unit_zero (S := S1x256) offsets_zero]
  funext j
  obtain ⟨p, q, rfl⟩ : ∃ (p q : Fin 1024), j = ix2 p q := ⟨j 0, j 1, eq_ix2 j⟩
  obtain ⟨-, -, -, -, -, -, -, -, -, -, e0, e1⟩ := idx_facts t
  show k0_pay1 (F := Ideal) (iblk m c 0 t) (iblk m c 1 t) (iblk m c 2 t) (iblk m c 3 t) (iblk m c 4 t) (ix2 p q)
    = outArr m c (((cfg0.win 5).blk t).view.emb (ix2 p q))
  refine (Body.pay_apply (iblk m c 0 t) (iblk m c 1 t) (iblk m c 2 t) (iblk m c 3 t) (iblk m c 4 t) p q).trans ?_
  have hemb : ((cfg0.win 5).blk t).view.emb (ix2 p q)
      = (ix2 ⟨t.val * 1024 + p.val, by have := point_lt t; have := p.isLt; omega⟩ q : S8192x1024.Idx) := by
    funext a; apply Fin.ext
    match a with
    | ⟨0, _⟩ => show win0_5.index t (0 : Fin 2) * 1024 + 1 * p.val = t.val * 1024 + p.val; omega
    | ⟨1, _⟩ => show win0_5.index t (1 : Fin 2) * 1024 + 1 * q.val = q.val; omega
  rw [hemb]
  exact S6Spec.rowVal_congr (iblk m c 0 t) (V m c main_v0) (iblk m c 1 t) (V m c main_v2) (iblk m c 2 t) (V m c main_v3)
    (iblk m c 3 t) (V m c main_v12) (iblk m c 4 t) (V m c main_v19) p _ q
    (fun k => iblk0_apply m c t p k) (fun k e => iblk1_apply m c t k e) (fun e => iblk2_apply m c t e)
    (fun k e => iblk3_apply m c t k e) (fun e => iblk4_apply m c t e)

/-- An index of the array is in point `t`'s block iff each coordinate is in the block's range on its axis. -/
theorem mem_blk (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v20).slice (win0_5.rect t)).set ↔ _
  rw [View.set_slice_whole, Rect.mem_set_unit]
  exact Iff.rfl

/-- Every row is in the block of the point `row / 1024`. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  let t : Fin cfg0.N := ⟨(i 0).val / 1024, lt_of_lt_of_eq (by omega) N_0.symm⟩
  obtain ⟨-, -, -, -, -, -, -, -, -, -, e0, e1⟩ := idx_facts t
  have ht : t.val = (i 0).val / 1024 := rfl
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE ARRAY after the region: `outArr`. -/
theorem final (c : Dev nD) : (dats m 0 c).arrAt 5 cfg0.N = outArr m c :=
  (dats m 0 c).arrAt_eq_of_cover 5 (outArr m c) (fun t _ => flushed_eq m c t) cover

end Cert.KernelIdeal.Array

end
-- ==== Proof.LibBlockSet.lean ====
/-
  Reading a "set a 32×32 block" scatter at an index.

  `Host.scatter d (fun _ b => b) x idx upd` with a rank-2 operand of extent 128×128, a rank-2 update of
  extent 32×32 whose two axes are both window axes (`updateWindowDims = [0, 1]`, nothing inserted,
  `scatterDimsToOperandDims = [0, 1]`) and ONE scatter index whose two components are the same literal `o`
  with `o + 32 ≤ 128`, overwrites the block `[o, o + 32) × [o, o + 32)` of the operand with the update and
  leaves every other element as it was:

    result (r, c) = upd (r − o, c − o)   if o ≤ r < o + 32 and o ≤ c < o + 32,
    result (r, c) = x (r, c)             otherwise.

  The proof has three parts.
  * `foldl_keep` / `foldl_hit`: a left fold of "overwrite the entry the key names, if it names one" read at one
    entry `i'` — it is the start value when no key in the list names `i'`, and the common value `v` of the
    updates when some key names `i'` and every key that does carries `v`.
  * `resultIdx_eq`: update index `j` lands at operand index `(o + j₀, o + j₁)`; the start is the index word
    read as a signed integer (`o < 2³¹`, so it is `o` itself), the window coordinate on axis `a` is `j a`, and
    `o + j a < o + 32 ≤ 128` keeps every update inside the operand.
  * `scatter_block_apply`: `j ↦ (o + j₀, o + j₁)` is injective and its image is the block, and the row-major
    enumeration of the update indices is onto, so inside the block exactly one update index hits `(r, c)` —
    namely `(r − o, c − o)` — and outside none does.
-/
import Idealize.ShloMosaic.Lib.ValueIdx

open Idealize.ShloMosaic Idealize.ShloMosaic.ValueIdx

namespace LibBlockSet

/-! ## A fold of keyed overwrites, read at one entry -/

/-- A left fold whose step overwrites at most the entry its key names leaves entry `i'` alone when no key in
    the list names `i'`. The step is abstract: all that is used is that it does not touch `i'` when the key is
    another entry (`hne`) or names nothing (`hnone`). -/
theorem foldl_keep {ι β α : Type*} (key : ι → Option β) (step : (β → α) → ι → (β → α)) (i' : β)
    (hne : ∀ r n i, key n = some i → i ≠ i' → step r n i' = r i')
    (hnone : ∀ r n, key n = none → step r n i' = r i')
    (l : List ι) (x : β → α) (hl : ∀ n ∈ l, key n ≠ some i') :
    l.foldl step x i' = x i' := by
  induction l generalizing x with
  | nil => rfl
  | cons n l ih =>
    rw [List.foldl_cons, ih _ (fun m hm => hl m (List.mem_cons_of_mem _ hm))]
    cases hk : key n with
    | none => exact hnone x n hk
    | some i =>
      refine hne x n i hk ?_
      rintro rfl
      exact hl n List.mem_cons_self hk

/-- The same fold at an entry `i'` that some key in the list names: if every element whose key is `i'` writes
    the same value `v` (`heq`: such a step puts `val n` at `i'`; `hv`: that value is `v`), the fold holds `v` at
    `i'` whatever it started from. Induction on the list: either a later element names `i'` and the induction
    hypothesis applies to the tail, or none does, the tail keeps entry `i'` (`foldl_keep`) and the head is the
    element that wrote it. -/
theorem foldl_hit {ι β α : Type*} (key : ι → Option β) (step : (β → α) → ι → (β → α)) (i' : β)
    (val : ι → α) (v : α)
    (hne : ∀ r n i, key n = some i → i ≠ i' → step r n i' = r i')
    (heq : ∀ r n, key n = some i' → step r n i' = val n)
    (hnone : ∀ r n, key n = none → step r n i' = r i')
    (l : List ι) (x : β → α) (hex : ∃ n ∈ l, key n = some i')
    (hv : ∀ n ∈ l, key n = some i' → val n = v) :
    l.foldl step x i' = v := by
  induction l generalizing x with
  | nil => obtain ⟨n, hn, _⟩ := hex; cases hn
  | cons n l ih =>
    rw [List.foldl_cons]
    by_cases hl : ∃ m ∈ l, key m = some i'
    · exact ih _ hl (fun m hm => hv m (List.mem_cons_of_mem _ hm))
    · rw [foldl_keep key step i' hne hnone l _ (fun m hm hk => hl ⟨m, hm, hk⟩)]
      obtain ⟨m, hm, hk⟩ := hex
      rcases List.mem_cons.1 hm with rfl | hm'
      · rw [heq x m hk]; exact hv m List.mem_cons_self hk
      · exact absurd ⟨m, hm', hk⟩ hl

/-! ## Where an update index lands -/

/-- The window's start on either operand axis is the index word read signed, when both axes are scattered
    axes and every word of the scatter indices is the same `c`. -/
theorem start_eq {w : Nat} (d : ScatterDims ⟨2, ![128, 128]⟩ ⟨1, ![2]⟩ ⟨2, ![32, 32]⟩)
    (h3 : d.scatterDimsToOperandDims = [0, 1])
    (idx : IVec ⟨1, ![2]⟩ w) (c : BitVec w) (hidx : ∀ k, idx k = c)
    (j : (⟨2, ![32, 32]⟩ : Shape).Idx) (a : Fin 2) : d.start j idx a = c.toInt := by
  unfold ScatterDims.start
  have ha : a ∈ d.scatterDimsToOperandDims := by rw [h3]; fin_cases a <;> simp
  rw [dif_pos ha, hidx]

/-- The window coordinate on operand axis `a` is the update index's coordinate on the same axis, when the
    update's two axes are the window axes in order and no operand axis is inserted. -/
theorem window_eq (d : ScatterDims ⟨2, ![128, 128]⟩ ⟨1, ![2]⟩ ⟨2, ![32, 32]⟩)
    (h1 : d.updateWindowDims = [0, 1]) (h2 : d.insertedWindowDims = [])
    (j : (⟨2, ![32, 32]⟩ : Shape).Idx) : d.window j 0 = (j 0).val ∧ d.window j 1 = (j 1).val := by
  obtain ⟨uw, iw, sd, iv, wf⟩ := d
  simp only at h1 h2
  subst h1 h2
  exact ⟨rfl, rfl⟩

/-- Update index `j` lands at operand index `(o + j₀, o + j₁)`, inside the operand since
    `o + j a < o + 32 ≤ 128`. The index word `o` is below `2³¹`, so read signed it is `o`. -/
theorem resultIdx_eq (d : ScatterDims ⟨2, ![128, 128]⟩ ⟨1, ![2]⟩ ⟨2, ![32, 32]⟩)
    (h1 : d.updateWindowDims = [0, 1]) (h2 : d.insertedWindowDims = [])
    (h3 : d.scatterDimsToOperandDims = [0, 1])
    (o : Nat) (ho : o + 32 ≤ 128)
    (idx : IVec ⟨1, ![2]⟩ 32) (hidx : ∀ k, idx k = BitVec.ofNat 32 o)
    (j : (⟨2, ![32, 32]⟩ : Shape).Idx) :
    d.resultIdx? j idx =
      some (ix2 ⟨o + (j 0).val, by have := idx2_lt0 j; omega⟩ ⟨o + (j 1).val, by have := idx2_lt1 j; omega⟩) := by
  have hn : (BitVec.ofNat 32 o).toNat = o := by rw [BitVec.toNat_ofNat]; omega
  have hc : (BitVec.ofNat 32 o).toInt = (o : Int) := by
    rw [BitVec.toInt_eq_toNat_of_lt (by rw [hn]; omega), hn]
  have hs : ∀ a : Fin 2, d.start j idx a = (o : Int) := fun a => by rw [start_eq d h3 idx _ hidx j a, hc]
  obtain ⟨hw0, hw1⟩ := window_eq d h1 h2 j
  have h0 := idx2_lt0 j
  have h1' := idx2_lt1 j
  have hall : ∀ a : Fin 2, 0 ≤ d.start j idx a + (d.window j a : Int) ∧
      d.start j idx a + (d.window j a : Int) < ((⟨2, ![128, 128]⟩ : Shape).size a : Int) := by
    rw [Fin.forall_fin_two, hs 0, hs 1, hw0, hw1]
    refine ⟨⟨by omega, ?_⟩, ⟨by omega, ?_⟩⟩
    · show (o : Int) + ((j 0).val : Int) < ((128 : Nat) : Int); omega
    · show (o : Int) + ((j 1).val : Int) < ((128 : Nat) : Int); omega
  unfold ScatterDims.resultIdx?
  rw [dif_pos hall]
  congr 1
  funext a
  apply Fin.ext
  match a with
  | ⟨0, _⟩ =>
    show (d.start j idx 0 + (d.window j 0 : Int)).toNat = o + (j 0).val
    rw [hs 0, hw0]; omega
  | ⟨1, _⟩ =>
    show (d.start j idx 1 + (d.window j 1 : Int)).toNat = o + (j 1).val
    rw [hs 1, hw1]; omega

/-! ## The scatter read at an index -/

/-- SETTING A 32×32 BLOCK, READ AT `(r, c)`: the scatter whose body returns the update, with one scatter
    index `(o, o)`, `o + 32 ≤ 128`, holds the update's element `(r − o, c − o)` at every `(r, c)` of the block
    `[o, o + 32) × [o, o + 32)` and the operand's element everywhere else. Inside the block the update index
    `(r − o, c − o)` lands at `(r, c)` and it is the only one that does (`j ↦ (o + j₀, o + j₁)` is injective);
    outside the block no update index lands at `(r, c)`, since every landing point has both coordinates in
    `[o, o + 32)`. -/
theorem scatter_block_apply {α : Type} (d : ScatterDims ⟨2, ![128, 128]⟩ ⟨1, ![2]⟩ ⟨2, ![32, 32]⟩)
    (h1 : d.updateWindowDims = [0, 1]) (h2 : d.insertedWindowDims = [])
    (h3 : d.scatterDimsToOperandDims = [0, 1])
    (o : Nat) (ho : o + 32 ≤ 128)
    (idx : IVec ⟨1, ![2]⟩ 32) (hidx : ∀ k, idx k = BitVec.ofNat 32 o)
    (x : (⟨2, ![128, 128]⟩ : Shape).Idx → α) (upd : (⟨2, ![32, 32]⟩ : Shape).Idx → α) (r c : Fin 128) :
    Host.scatter d (fun _ b => b) x idx upd (ix2 r c) =
      if h : o ≤ r.val ∧ r.val < o + 32 ∧ o ≤ c.val ∧ c.val < o + 32 then
        upd (ix2 ⟨r.val - o, by omega⟩ ⟨c.val - o, by omega⟩)
      else x (ix2 r c) := by
  have hkey := resultIdx_eq d h1 h2 h3 o ho idx hidx
  unfold Host.scatter
  split
  · rename_i h
    refine foldl_hit (fun n => d.resultIdx? ((Shape.rowMajor _).symm n) idx) _ (ix2 r c)
      (fun n => upd ((Shape.rowMajor _).symm n)) _ ?_ ?_ ?_ _ _ ?_ ?_
    · intro rr n i hk hi
      simp only [hk]
      exact if_neg (Ne.symm hi)
    · intro rr n hk
      simp only [hk]
      exact if_pos trivial
    · intro rr n hk
      simp only [hk]
    · refine ⟨(Shape.rowMajor _) (ix2 ⟨r.val - o, by omega⟩ ⟨c.val - o, by omega⟩), List.mem_finRange _, ?_⟩
      rw [Equiv.symm_apply_apply, hkey]
      congr 2 <;> exact Fin.ext (by show o + (_ - o) = _; omega)
    · intro n _ hk
      generalize (Shape.rowMajor _).symm n = j at hk ⊢
      rw [hkey j] at hk
      have e := Option.some.inj hk
      have e0 : o + (j 0).val = r.val := congrArg (fun i => (i 0).val) e
      have e1 : o + (j 1).val = c.val := congrArg (fun i => (i 1).val) e
      rw [eq_ix2 j]
      congr 2 <;> exact Fin.ext (by show _ = _ - o; omega)
  · rename_i h
    refine foldl_keep (fun n => d.resultIdx? ((Shape.rowMajor _).symm n) idx) _ (ix2 r c) ?_ ?_ _ _ ?_
    · intro rr n i hk hi
      simp only [hk]
      exact if_neg (Ne.symm hi)
    · intro rr n hk
      simp only [hk]
    · intro n _ hk
      generalize (Shape.rowMajor _).symm n = j at hk
      rw [hkey j] at hk
      have e := Option.some.inj hk
      have e0 : o + (j 0).val = r.val := congrArg (fun i => (i 0).val) e
      have e1 : o + (j 1).val = c.val := congrArg (fun i => (i 1).val) e
      have := idx2_lt0 j
      have := idx2_lt1 j
      omega

/-- The lemma at a literal index word: the block `[32, 64) × [32, 64)`. The three list equations are the
    dimension numbers' own fields; the bound and the index hypothesis are closed by `decide` / `rfl`. -/
example {α : Type} (d : ScatterDims ⟨2, ![128, 128]⟩ ⟨1, ![2]⟩ ⟨2, ![32, 32]⟩)
    (h1 : d.updateWindowDims = [0, 1]) (h2 : d.insertedWindowDims = [])
    (h3 : d.scatterDimsToOperandDims = [0, 1])
    (x : (⟨2, ![128, 128]⟩ : Shape).Idx → α) (upd : (⟨2, ![32, 32]⟩ : Shape).Idx → α) (r c : Fin 128) :
    Host.scatter d (fun _ b => b) x (fun _ => 32#32) upd (ix2 r c) =
      if h : 32 ≤ r.val ∧ r.val < 32 + 32 ∧ 32 ≤ c.val ∧ c.val < 32 + 32 then
        upd (ix2 ⟨r.val - 32, by omega⟩ ⟨c.val - 32, by omega⟩)
      else x (ix2 r c) :=
  scatter_block_apply d h1 h2 h3 32 (by decide) _ (fun _ => rfl) x upd r c

end LibBlockSet
-- ==== Proof.LibColsSet.lean ====
/-
  Reading a "set a band of columns" scatter at an index.

  `Host.scatter d (fun _ b => b) x idx upd` with a rank-2 operand of extent R×C, a rank-2 update of extent
  R×w whose two axes are both window axes (`updateWindowDims = [0, 1]`, nothing inserted) and ONE scatter index
  of ONE component, the literal `o`, which names the start on the column axis only
  (`scatterDimsToOperandDims = [1]`) with `o + w ≤ C`, overwrites the columns `[o, o + w)` of the operand with the
  update and leaves every other element as it was:

    result (r, c) = upd (r, c − o)   if o ≤ c < o + w,
    result (r, c) = x (r, c)         otherwise.

  The proof has two parts.
  * `resultIdx_eq`: update index `j` lands at operand index `(j₀, o + j₁)`. On the row axis, which the index
    vector does not name, the window starts at 0; on the column axis it starts at the index word read as a signed
    integer (`o ≤ C < 2³¹`, so it is `o` itself). The window coordinate on axis `a` is `j a`, and `j₀ < R`,
    `o + j₁ < o + w ≤ C` keep every update inside the operand.
  * `scatter_cols_apply`: `j ↦ (j₀, o + j₁)` is injective and its image is the band of columns, and the
    row-major enumeration of the update indices is onto, so inside the band exactly one update index hits
    `(r, c)` — namely `(r, c − o)` — and outside none does. The scatter is a left fold of keyed overwrites, read
    at one entry by the two fold lemmas of `LibBlockSet`.
-/
import proofs.«137741_j25907242729655_2_alg».proof.Proof.LibBlockSet
import Idealize.ShloMosaic.Lib.ValueIdx

open Idealize.ShloMosaic Idealize.ShloMosaic.ValueIdx

namespace LibColsSet

/-! ## Where an update index lands -/

/-- The window's start is 0 on the row axis, which the index vector does not name, and the index word read
    signed on the column axis, when every word of the scatter indices is the same `c`. -/
theorem start_eq {R C w bw : Nat} (d : ScatterDims ⟨2, ![R, C]⟩ ⟨1, ![1]⟩ ⟨2, ![R, w]⟩)
    (h3 : d.scatterDimsToOperandDims = [1])
    (idx : IVec ⟨1, ![1]⟩ bw) (c : BitVec bw) (hidx : ∀ k, idx k = c)
    (j : (⟨2, ![R, w]⟩ : Shape).Idx) : d.start j idx 0 = 0 ∧ d.start j idx 1 = c.toInt := by
  unfold ScatterDims.start
  constructor
  · have ha : (0 : Fin 2) ∉ d.scatterDimsToOperandDims := by rw [h3]; simp
    rw [dif_neg ha]
  · have ha : (1 : Fin 2) ∈ d.scatterDimsToOperandDims := by rw [h3]; simp
    rw [dif_pos ha, hidx]

/-- The window coordinate on operand axis `a` is the update index's coordinate on the same axis, when the
    update's two axes are the window axes in order and no operand axis is inserted. -/
theorem window_eq {R C w : Nat} (d : ScatterDims ⟨2, ![R, C]⟩ ⟨1, ![1]⟩ ⟨2, ![R, w]⟩)
    (h1 : d.updateWindowDims = [0, 1]) (h2 : d.insertedWindowDims = [])
    (j : (⟨2, ![R, w]⟩ : Shape).Idx) : d.window j 0 = (j 0).val ∧ d.window j 1 = (j 1).val := by
  obtain ⟨uw, iw, sd, iv, wf⟩ := d
  simp only at h1 h2
  subst h1 h2
  exact ⟨rfl, rfl⟩

/-- Update index `j` lands at operand index `(j₀, o + j₁)`, inside the operand since `j₀ < R` and
    `o + j₁ < o + w ≤ C`. The index word `o` is below `2³¹`, so read signed it is `o`. -/
theorem resultIdx_eq {R C w : Nat} (d : ScatterDims ⟨2, ![R, C]⟩ ⟨1, ![1]⟩ ⟨2, ![R, w]⟩)
    (h1 : d.updateWindowDims = [0, 1]) (h2 : d.insertedWindowDims = [])
    (h3 : d.scatterDimsToOperandDims = [1])
    (o : Nat) (ho : o + w ≤ C) (hC : C < 2 ^ 31)
    (idx : IVec ⟨1, ![1]⟩ 32) (hidx : ∀ k, idx k = BitVec.ofNat 32 o)
    (j : (⟨2, ![R, w]⟩ : Shape).Idx) :
    d.resultIdx? j idx =
      some (ix2 ⟨(j 0).val, idx2_lt0 j⟩ ⟨o + (j 1).val, by have := idx2_lt1 j; omega⟩) := by
  have hn : (BitVec.ofNat 32 o).toNat = o := by rw [BitVec.toNat_ofNat]; omega
  have hc : (BitVec.ofNat 32 o).toInt = (o : Int) := by
    rw [BitVec.toInt_eq_toNat_of_lt (by rw [hn]; omega), hn]
  obtain ⟨hs0, hs1⟩ := start_eq d h3 idx _ hidx j
  rw [hc] at hs1
  obtain ⟨hw0, hw1⟩ := window_eq d h1 h2 j
  have h0 := idx2_lt0 j
  have h1' := idx2_lt1 j
  have hall : ∀ a : Fin 2, 0 ≤ d.start j idx a + (d.window j a : Int) ∧
      d.start j idx a + (d.window j a : Int) < ((⟨2, ![R, C]⟩ : Shape).size a : Int) := by
    rw [Fin.forall_fin_two, hs0, hs1, hw0, hw1]
    refine ⟨⟨by omega, ?_⟩, ⟨by omega, ?_⟩⟩
    · show (0 : Int) + ((j 0).val : Int) < ((R : Nat) : Int); omega
    · show (o : Int) + ((j 1).val : Int) < ((C : Nat) : Int); omega
  unfold ScatterDims.resultIdx?
  rw [dif_pos hall]
  congr 1
  funext a
  apply Fin.ext
  match a with
  | ⟨0, _⟩ =>
    show (d.start j idx 0 + (d.window j 0 : Int)).toNat = (j 0).val
    rw [hs0, hw0]; omega
  | ⟨1, _⟩ =>
    show (d.start j idx 1 + (d.window j 1 : Int)).toNat = o + (j 1).val
    rw [hs1, hw1]; omega

/-! ## The scatter read at an index -/

/-- SETTING THE COLUMNS `[o, o + w)`, READ AT `(r, c)`: the scatter whose body returns the update, with one
    scatter index of one component `o` naming the column offset, `o + w ≤ C`, holds the update's element
    `(r, c − o)` at every `(r, c)` with `o ≤ c < o + w` and the operand's element everywhere else. Inside the
    band the update index `(r, c − o)` lands at `(r, c)` and it is the only one that does
    (`j ↦ (j₀, o + j₁)` is injective); outside the band no update index lands at `(r, c)`, since every landing
    point has its column in `[o, o + w)`. -/
theorem scatter_cols_apply {α : Type} {R C w : Nat} (d : ScatterDims ⟨2, ![R, C]⟩ ⟨1, ![1]⟩ ⟨2, ![R, w]⟩)
    (h1 : d.updateWindowDims = [0, 1]) (h2 : d.insertedWindowDims = [])
    (h3 : d.scatterDimsToOperandDims = [1])
    (o : Nat) (ho : o + w ≤ C) (hC : C < 2 ^ 31)
    (idx : IVec ⟨1, ![1]⟩ 32) (hidx : ∀ k, idx k = BitVec.ofNat 32 o)
    (x : (⟨2, ![R, C]⟩ : Shape).Idx → α) (upd : (⟨2, ![R, w]⟩ : Shape).Idx → α) (r : Fin R) (c : Fin C) :
    Host.scatter d (fun _ b => b) x idx upd (ix2 r c) =
      if h : o ≤ c.val ∧ c.val < o + w then upd (ix2 r ⟨c.val - o, by omega⟩) else x (ix2 r c) := by
  have hkey := resultIdx_eq d h1 h2 h3 o ho hC idx hidx
  unfold Host.scatter
  split
  · rename_i h
    refine LibBlockSet.foldl_hit (fun n => d.resultIdx? ((Shape.rowMajor _).symm n) idx) _ (ix2 r c)
      (fun n => upd ((Shape.rowMajor _).symm n)) _ ?_ ?_ ?_ _ _ ?_ ?_
    · intro rr n i hk hi
      simp only [hk]
      exact if_neg (Ne.symm hi)
    · intro rr n hk
      simp only [hk]
      exact if_pos trivial
    · intro rr n hk
      simp only [hk]
    · refine ⟨(Shape.rowMajor _) (ix2 r ⟨c.val - o, by omega⟩), List.mem_finRange _, ?_⟩
      rw [Equiv.symm_apply_apply, hkey]
      congr 2
      exact Fin.ext (by show o + (_ - o) = _; omega)
    · intro n _ hk
      generalize (Shape.rowMajor _).symm n = j at hk ⊢
      rw [hkey j] at hk
      have e := Option.some.inj hk
      have e0 : (j 0).val = r.val := congrArg (fun i => (i 0).val) e
      have e1 : o + (j 1).val = c.val := congrArg (fun i => (i 1).val) e
      rw [eq_ix2 j]
      congr 2
      · exact Fin.ext e0
      · exact Fin.ext (by show _ = _ - o; omega)
  · rename_i h
    refine LibBlockSet.foldl_keep (fun n => d.resultIdx? ((Shape.rowMajor _).symm n) idx) _ (ix2 r c) ?_ ?_ _ _ ?_
    · intro rr n i hk hi
      simp only [hk]
      exact if_neg (Ne.symm hi)
    · intro rr n hk
      simp only [hk]
    · intro n _ hk
      generalize (Shape.rowMajor _).symm n = j at hk
      rw [hkey j] at hk
      have e := Option.some.inj hk
      have e1 : o + (j 1).val = c.val := congrArg (fun i => (i 1).val) e
      have := idx2_lt1 j
      omega

/-- The lemma at a literal index word and literal extents: the columns `[128, 144)` of a 1024×256 operand.
    The three list equations are the dimension numbers' own fields; the bounds and the index hypothesis are
    closed by `decide` / `rfl`. -/
example {α : Type} (d : ScatterDims ⟨2, ![1024, 256]⟩ ⟨1, ![1]⟩ ⟨2, ![1024, 16]⟩)
    (h1 : d.updateWindowDims = [0, 1]) (h2 : d.insertedWindowDims = [])
    (h3 : d.scatterDimsToOperandDims = [1])
    (x : (⟨2, ![1024, 256]⟩ : Shape).Idx → α) (upd : (⟨2, ![1024, 16]⟩ : Shape).Idx → α)
    (r : Fin 1024) (c : Fin 256) :
    Host.scatter d (fun _ b => b) x (fun _ => 128#32) upd (ix2 r c) =
      if h : 128 ≤ c.val ∧ c.val < 128 + 16 then upd (ix2 r ⟨c.val - 128, by omega⟩) else x (ix2 r c) :=
  scatter_cols_apply d h1 h2 h3 128 (by decide) (by decide) _ (fun _ => rfl) x upd r c

end LibColsSet
-- ==== Proof.Operands.lean ====
/-
  The five arrays the kernel's region finds staged, read at an entry.

  Before the region the host program prepares, from the argument arrays as launched,
  * the input `x` of extent [2, 4096, 1024] flattened to [8192, 1024]: entry `(4096·b + l, k)` is `x (b, l, k)`;
  * the first weight matrix transposed (and narrowed, which on the extended reals changes nothing): entry `(k, e)` is
    `W1 (e, k)`;
  * the first bias as a row: entry `(0, e)` is `b1 e`;
  * one [1024, 256] array, zero but for two bands of sixteen columns: columns `[0, 16)` hold the second weight
    matrix transposed, columns `[128, 144)` the third one transposed — so in either half of 128 lanes, lane `l` of row
    `k` is `W (l, k)` for `l < 16` and `0` beyond;
  * one [1, 256] row built the same way from the second and third biases.

  Each array is first shown EQUAL to a closed term over the argument arrays (the host operations' results composed),
  then that term is read at an entry: a reshape by row-major position, a transpose by swapping coordinates, a band of
  columns set by a scatter by `LibColsSet.scatter_cols_apply` (inside the band the update, outside the operand), and
  the all-zero operand by the constant's value.
-/
import proofs.«137741_j25907242729655_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import proofs.«137741_j25907242729655_2_alg».proof.Proof.LibColsSet
import proofs.«137741_j25907242729655_2_alg».proof.Proof.Spec

set_option maxRecDepth 16384

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The input flattened, the first weight matrix transposed, the first bias as a row -/

/-- The flattened input is the shape cast of the launched input. -/
theorem v0_eq : (V m c main_v0 : S8192x1024.Idx → EReal) =
    shapeCast S8192x1024 (m ((c : Thread nD τ).loc main_arg0) : S2x4096x1024.Idx → EReal)
      shapeCasts_S2x4096x1024_S8192x1024 := by
  show StableHlo.after hostOps0 (fun b => m (c, b)) (Proc.devRef .tc main_v0) = _
  after_results
  all_goals rfl

/-- Row `4096·b + l` of the flattened input is row `(b, l)` of the input: both sit at row-major position
    `(4096·b + l)·1024 + k`. -/
theorem v0_apply (r : Fin 8192) (k : Fin 1024) (b : Fin 2) (l : Fin 4096) (h : r.val = 4096 * b.val + l.val) :
    (V m c main_v0 : S8192x1024.Idx → EReal) (ix2 r k) = m ((c : Thread nD τ).loc main_arg0) (ix3 b l k) := by
  rw [v0_eq]
  refine shapeCast_apply _ _ _ _ ?_
  show (S2x4096x1024.rowMajor (ix3 b l k)).val = (S8192x1024.rowMajor (ix2 r k)).val
  rw [Shape.rowMajor_val_three, Shape.rowMajor_val_two]
  show (b.val * 4096 + l.val) * 1024 + k.val = r.val * 1024 + k.val
  omega

/-- The staged first weight matrix is the launched one transposed, then narrowed. -/
theorem v2_eq : (V m c main_v2 : S1024x1024.Idx → EReal) =
    (truncf (F := Ideal) FTy.bf16
      (transpose S1024x1024 [1, 0] (m ((c : Thread nD τ).loc main_arg1) : FVec Ideal S1024x1024 .f32)
        transposes_S1024x1024_S1024x1024_1_0) bitsLt_bf16_f32 : FVec Ideal S1024x1024 .bf16) := by
  show StableHlo.after hostOps0 (fun b => m (c, b)) (Proc.devRef .tc main_v2) = _
  after_results
  all_goals rfl

/-- Entry `(k, e)` of the staged first weight matrix is entry `(e, k)` of the launched one. -/
theorem v2_apply (k e : Fin 1024) :
    (V m c main_v2 : S1024x1024.Idx → EReal) (ix2 k e) = m ((c : Thread nD τ).loc main_arg1) (ix2 e k) := by
  rw [v2_eq]
  exact transpose_ix2_apply _ _ k e

/-- The staged first bias is the shape cast of the launched one. -/
theorem v3_eq : (V m c main_v3 : S1x1024.Idx → EReal) =
    shapeCast S1x1024 (m ((c : Thread nD τ).loc main_arg2) : S1024.Idx → EReal) shapeCasts_S1024_S1x1024 := by
  show StableHlo.after hostOps0 (fun b => m (c, b)) (Proc.devRef .tc main_v3) = _
  after_results
  all_goals rfl

/-- Entry `(0, e)` of the staged first bias is entry `e` of the launched one. -/
theorem v3_apply (u : Fin 1) (e : Fin 1024) :
    (V m c main_v3 : S1x1024.Idx → EReal) (ix2 u e) = m ((c : Thread nD τ).loc main_arg2) (ix1 e) := by
  rw [v3_eq]
  exact shapeCast_a_1a_apply _ _ u e

/-! ## The two weight matrices of sixteen rows, transposed into two bands of columns of a zero array -/

/-- The staged [1024, 256] array: a zero array into which the second weight matrix, transposed and narrowed, is set at
    columns `[0, 16)` and then the third one at columns `[128, 144)`. -/
theorem v12_eq : (V m c main_v12 : S1024x256.Idx → EReal) =
    (Host.scatter scatter_S1024x256_S1_S1024x16_01_n_1_0 (fun _ b => b)
      (Host.scatter scatter_S1024x256_S1_S1024x16_01_n_1_0 (fun _ b => b)
        (broadcastInDim S1024x256 ![] bcast_S_S1024x256 (constant (F := Ideal) S_ FTy.bf16 0x0000#16))
        (broadcastInDim S1 ![] bcast_S_S1 (constantI S_ 32 0#32))
        (truncf (F := Ideal) FTy.bf16
          (transpose S1024x16 [1, 0] (m ((c : Thread nD τ).loc main_arg3) : FVec Ideal S16x1024 .f32)
            transposes_S16x1024_S1024x16_1_0) bitsLt_bf16_f32))
      (broadcastInDim S1 ![] bcast_S_S1 (constantI S_ 32 128#32))
      (truncf (F := Ideal) FTy.bf16
        (transpose S1024x16 [1, 0] (m ((c : Thread nD τ).loc main_arg5) : FVec Ideal S16x1024 .f32)
          transposes_S16x1024_S1024x16_1_0) bitsLt_bf16_f32) : FVec Ideal S1024x256 .bf16) := by
  show StableHlo.after hostOps0 (fun b => m (c, b)) (Proc.devRef .tc main_v12) = _
  after_results
  all_goals rfl

/-- The narrow zero constant is zero. -/
theorem ofBits_zero_bf16 : Ideal.ofBits .bf16 0x0000#16 = 0 := by simp [Ideal.ofBits, Ideal.ieee]

/-- Lane `l` of the first half of row `k`: column `l < 128` is outside the band `[128, 144)`, so the second scatter
    leaves it as the first one made it — `W2 (l, k)` inside the band `[0, 16)`, the zero operand outside. -/
theorem v12_lo_apply (k : Fin 1024) (l : Fin 128) :
    (V m c main_v12 : S1024x256.Idx → EReal) (ix2 k (S6Spec.lo l)) =
      (if h : l.val < 16 then m ((c : Thread nD τ).loc main_arg3) (ix2 ⟨l.val, h⟩ k) else 0 : EReal) := by
  rw [v12_eq]
  refine (LibColsSet.scatter_cols_apply _ rfl rfl rfl 128 (by decide) (by decide) _ (fun _ => rfl) _ _ k
    (S6Spec.lo l)).trans ?_
  rw [dif_neg (show ¬(128 ≤ (S6Spec.lo l).val ∧ (S6Spec.lo l).val < 128 + 16) from fun h => by
    have : l.val < 128 := l.isLt
    exact absurd h.1 (by show ¬(128 ≤ l.val); omega))]
  refine (LibColsSet.scatter_cols_apply _ rfl rfl rfl 0 (by decide) (by decide) _ (fun _ => rfl) _ _ k
    (S6Spec.lo l)).trans ?_
  by_cases h : l.val < 16
  · rw [dif_pos (show 0 ≤ (S6Spec.lo l).val ∧ (S6Spec.lo l).val < 0 + 16 from
      ⟨Nat.zero_le _, by show l.val < 0 + 16; omega⟩), dif_pos h]
    exact transpose_ix2_apply _ _ k ⟨l.val, h⟩
  · rw [dif_neg (show ¬(0 ≤ (S6Spec.lo l).val ∧ (S6Spec.lo l).val < 0 + 16) from fun h' =>
      h (by have := h'.2; show l.val < 16; omega)), dif_neg h]
    exact ofBits_zero_bf16

/-- Lane `l` of the second half of row `k`: column `128 + l` is inside the band `[128, 144)` exactly when `l < 16`,
    where the second scatter put `W3 (l, k)`; beyond, it is outside both bands and holds the zero operand. -/
theorem v12_hi_apply (k : Fin 1024) (l : Fin 128) :
    (V m c main_v12 : S1024x256.Idx → EReal) (ix2 k (S6Spec.hi l)) =
      (if h : l.val < 16 then m ((c : Thread nD τ).loc main_arg5) (ix2 ⟨l.val, h⟩ k) else 0 : EReal) := by
  rw [v12_eq]
  refine (LibColsSet.scatter_cols_apply _ rfl rfl rfl 128 (by decide) (by decide) _ (fun _ => rfl) _ _ k
    (S6Spec.hi l)).trans ?_
  by_cases h : l.val < 16
  · rw [dif_pos (show 128 ≤ (S6Spec.hi l).val ∧ (S6Spec.hi l).val < 128 + 16 from
      ⟨by show 128 ≤ 128 + l.val; omega, by show 128 + l.val < 128 + 16; omega⟩), dif_pos h]
    have e : ∀ p : (S6Spec.hi l).val - 128 < 16, (⟨(S6Spec.hi l).val - 128, p⟩ : Fin 16) = ⟨l.val, h⟩ :=
      fun _ => Fin.ext (by show 128 + l.val - 128 = l.val; omega)
    rw [e]
    exact transpose_ix2_apply _ _ k ⟨l.val, h⟩
  · rw [dif_neg (show ¬(128 ≤ (S6Spec.hi l).val ∧ (S6Spec.hi l).val < 128 + 16) from fun h' =>
      h (by have := h'.2; change 128 + l.val < 128 + 16 at this; omega)), dif_neg h]
    refine (LibColsSet.scatter_cols_apply _ rfl rfl rfl 0 (by decide) (by decide) _ (fun _ => rfl) _ _ k
      (S6Spec.hi l)).trans ?_
    rw [dif_neg (show ¬(0 ≤ (S6Spec.hi l).val ∧ (S6Spec.hi l).val < 0 + 16) from fun h' => by
      have := h'.2; change 128 + l.val < 0 + 16 at this; omega)]
    exact ofBits_zero_bf16

/-! ## The two biases of sixteen entries, set into two bands of columns of a zero row -/

/-- The staged [1, 256] row: a zero row into which the second bias, as a row, is set at columns `[0, 16)` and then the
    third one at columns `[128, 144)`. -/
theorem v19_eq : (V m c main_v19 : S1x256.Idx → EReal) =
    (Host.scatter scatter_S1x256_S1_S1x16_01_n_1_0 (fun _ b => b)
      (Host.scatter scatter_S1x256_S1_S1x16_01_n_1_0 (fun _ b => b)
        (broadcastInDim S1x256 ![] bcast_S_S1x256 (constant (F := Ideal) S_ FTy.f32 0x00000000#32))
        (broadcastInDim S1 ![] bcast_S_S1 (constantI S_ 32 0#32))
        (shapeCast S1x16 (m ((c : Thread nD τ).loc main_arg4) : S16.Idx → EReal) shapeCasts_S16_S1x16))
      (broadcastInDim S1 ![] bcast_S_S1 (constantI S_ 32 128#32))
      (shapeCast S1x16 (m ((c : Thread nD τ).loc main_arg6) : S16.Idx → EReal) shapeCasts_S16_S1x16) :
        FVec Ideal S1x256 .f32) := by
  show StableHlo.after hostOps0 (fun b => m (c, b)) (Proc.devRef .tc main_v19) = _
  after_results
  all_goals rfl

/-- Lane `l` of the first half of the row: column `l < 128` is outside the band `[128, 144)`, so the second scatter
    leaves it as the first one made it — `b2 l` inside the band `[0, 16)`, the zero operand outside. -/
theorem v19_lo_apply (u : Fin 1) (l : Fin 128) :
    (V m c main_v19 : S1x256.Idx → EReal) (ix2 u (S6Spec.lo l)) =
      (if h : l.val < 16 then m ((c : Thread nD τ).loc main_arg4) (ix1 ⟨l.val, h⟩) else 0 : EReal) := by
  rw [v19_eq]
  refine (LibColsSet.scatter_cols_apply _ rfl rfl rfl 128 (by decide) (by decide) _ (fun _ => rfl) _ _ u
    (S6Spec.lo l)).trans ?_
  rw [dif_neg (show ¬(128 ≤ (S6Spec.lo l).val ∧ (S6Spec.lo l).val < 128 + 16) from fun h => by
    have : l.val < 128 := l.isLt
    exact absurd h.1 (by show ¬(128 ≤ l.val); omega))]
  refine (LibColsSet.scatter_cols_apply _ rfl rfl rfl 0 (by decide) (by decide) _ (fun _ => rfl) _ _ u
    (S6Spec.lo l)).trans ?_
  by_cases h : l.val < 16
  · rw [dif_pos (show 0 ≤ (S6Spec.lo l).val ∧ (S6Spec.lo l).val < 0 + 16 from
      ⟨Nat.zero_le _, by show l.val < 0 + 16; omega⟩), dif_pos h]
    exact shapeCast_a_1a_apply _ _ u ⟨l.val, h⟩
  · rw [dif_neg (show ¬(0 ≤ (S6Spec.lo l).val ∧ (S6Spec.lo l).val < 0 + 16) from fun h' =>
      h (by have := h'.2; show l.val < 16; omega)), dif_neg h]
    exact Ideal.ofBits_zero_f32

/-- Lane `l` of the second half of the row: column `128 + l` is inside the band `[128, 144)` exactly when `l < 16`,
    where the second scatter put `b3 l`; beyond, it is outside both bands and holds the zero operand. -/
theorem v19_hi_apply (u : Fin 1) (l : Fin 128) :
    (V m c main_v19 : S1x256.Idx → EReal) (ix2 u (S6Spec.hi l)) =
      (if h : l.val < 16 then m ((c : Thread nD τ).loc main_arg6) (ix1 ⟨l.val, h⟩) else 0 : EReal) := by
  rw [v19_eq]
  refine (LibColsSet.scatter_cols_apply _ rfl rfl rfl 128 (by decide) (by decide) _ (fun _ => rfl) _ _ u
    (S6Spec.hi l)).trans ?_
  by_cases h : l.val < 16
  · rw [dif_pos (show 128 ≤ (S6Spec.hi l).val ∧ (S6Spec.hi l).val < 128 + 16 from
      ⟨by show 128 ≤ 128 + l.val; omega, by show 128 + l.val < 128 + 16; omega⟩), dif_pos h]
    have e : ∀ p : (S6Spec.hi l).val - 128 < 16, (⟨(S6Spec.hi l).val - 128, p⟩ : Fin 16) = ⟨l.val, h⟩ :=
      fun _ => Fin.ext (by show 128 + l.val - 128 = l.val; omega)
    rw [e]
    exact shapeCast_a_1a_apply _ _ u ⟨l.val, h⟩
  · rw [dif_neg (show ¬(128 ≤ (S6Spec.hi l).val ∧ (S6Spec.hi l).val < 128 + 16) from fun h' =>
      h (by have := h'.2; change 128 + l.val < 128 + 16 at this; omega)), dif_neg h]
    refine (LibColsSet.scatter_cols_apply _ rfl rfl rfl 0 (by decide) (by decide) _ (fun _ => rfl) _ _ u
      (S6Spec.hi l)).trans ?_
    rw [dif_neg (show ¬(0 ≤ (S6Spec.hi l).val ∧ (S6Spec.hi l).val < 0 + 16) from fun h' => by
      have := h'.2; change 128 + l.val < 0 + 16 at this; omega)]
    exact Ideal.ofBits_zero_f32

end Cert.KernelIdeal.Operands

end
-- ==== Proof.RowAlgebra.lean ====
/-
  A row of the kernel body's value is a row of the specified function, once the five arrays it is handed are the argument
  arrays laid out as the host code lays them.

  Row r = 4096·b + l of the flattened input is the input's row (b, l). The first weight matrix arrives transposed and its
  bias as a row, so the first projection is the specified one. The two small weight matrices arrive transposed, each
  padded with zero columns from 16 to 128 lanes, side by side; their biases are padded the same way. On a lane n ≥ 16 of
  either half the projection is a row against a zero column plus a zero bias, (∑ₖ a·0) + 0 = 0 — on the extended reals
  a·0 = 0 for every a, the infinite ones included — so the lane contributes 0·0 = 0 and the 128-lane sum is the sum over
  the first sixteen lanes, where the first half holds the projection by W2 and the second the projection by W3. The
  specification multiplies them in the other order.
-/
import proofs.«137741_j25907242729655_2_alg».proof.Proof.Spec

noncomputable section

open scoped BigOperators

namespace S6Spec.Row

open Idealize.ShloMosaic Idealize.ShloMosaic.ValueIdx S6Spec

/-- A row against a padded weight column plus the padded bias: the projection on a lane below 16, zero on the others. -/
theorem half_apply (x : SX.Idx → EReal) (W : (⟨2, ![16, 1024]⟩ : Shape).Idx → EReal) (β : (⟨1, ![16]⟩ : Shape).Idx → EReal)
    (a c : Fin 1024 → EReal) (d : EReal) (b : Fin 2) (l : Fin 4096) (m : Nat)
    (ha : ∀ k, a k = x (ix3 b l k))
    (hc : ∀ k, c k = if h : m < 16 then W (ix2 ⟨m, h⟩ k) else 0)
    (hd : d = if h : m < 16 then β (ix1 ⟨m, h⟩) else 0) :
    (∑ k : Fin 1024, a k * c k) + d = if h : m < 16 then proj x W β b l ⟨m, h⟩ else 0 := by
  by_cases h : m < 16
  · rw [dif_pos h, hd, dif_pos h]
    unfold proj
    refine congrArg (fun t : EReal => t + β (ix1 ⟨m, h⟩)) (Finset.sum_congr rfl fun k _ => ?_)
    rw [ha k, hc k, dif_pos h]
  · rw [dif_neg h, hd, dif_neg h, add_zero]
    refine Finset.sum_eq_zero fun k _ => ?_
    rw [hc k, dif_neg h, mul_zero]

/-- The 128-lane sum of products of two padded families is the 16-term sum of the products in the other order. -/
theorem lanes_sum (P Q : Fin 16 → EReal) :
    (∑ l' : Fin 128, (if h : l'.val < 16 then P ⟨l'.val, h⟩ else 0) * (if h : l'.val < 16 then Q ⟨l'.val, h⟩ else 0))
      = ∑ n : Fin 16, Q n * P n := by
  refine (sum_padded (a := 16) (b := 112)
    (fun l' : Fin 128 => (if h : l'.val < 16 then P ⟨l'.val, h⟩ else 0) * (if h : l'.val < 16 then Q ⟨l'.val, h⟩ else 0))
    fun j => ?_).trans ?_
  · have hn : ¬ (Fin.natAdd 16 j : Fin (16 + 112)).val < 16 := Nat.not_lt.2 (Nat.le_add_right 16 j.val)
    beta_reduce
    rw [dif_neg hn, zero_mul]
  · refine Finset.sum_congr rfl fun n _ => ?_
    have hn : (Fin.castAdd 112 n : Fin (16 + 112)).val < 16 := n.isLt
    beta_reduce
    rw [dif_pos hn, dif_pos hn]
    exact mul_comm _ _

/-- A row of the body's value, at the host's layout of the argument arrays, is the row of `G`. -/
theorem rowVal_eq_G (x : SX.Idx → EReal) (W1 : (⟨2, ![1024, 1024]⟩ : Shape).Idx → EReal) (b1 : (⟨1, ![1024]⟩ : Shape).Idx → EReal)
    (W2 : (⟨2, ![16, 1024]⟩ : Shape).Idx → EReal) (b2 : (⟨1, ![16]⟩ : Shape).Idx → EReal)
    (W3 : (⟨2, ![16, 1024]⟩ : Shape).Idx → EReal) (b3 : (⟨1, ![16]⟩ : Shape).Idx → EReal)
    (A0 : (⟨2, ![8192, 1024]⟩ : Shape).Idx → EReal) (A1 : (⟨2, ![1024, 1024]⟩ : Shape).Idx → EReal)
    (A2 : (⟨2, ![1, 1024]⟩ : Shape).Idx → EReal) (A3 : (⟨2, ![1024, 256]⟩ : Shape).Idx → EReal) (A4 : (⟨2, ![1, 256]⟩ : Shape).Idx → EReal)
    (h0 : ∀ (r : Fin 8192) (k : Fin 1024) (b : Fin 2) (l : Fin 4096), r.val = 4096 * b.val + l.val → A0 (ix2 r k) = x (ix3 b l k))
    (h1 : ∀ k e : Fin 1024, A1 (ix2 k e) = W1 (ix2 e k))
    (h2 : ∀ (u : Fin 1) (e : Fin 1024), A2 (ix2 u e) = b1 (ix1 e))
    (h3lo : ∀ (k : Fin 1024) (l : Fin 128), A3 (ix2 k (lo l)) = if h : l.val < 16 then W2 (ix2 ⟨l.val, h⟩ k) else 0)
    (h3hi : ∀ (k : Fin 1024) (l : Fin 128), A3 (ix2 k (hi l)) = if h : l.val < 16 then W3 (ix2 ⟨l.val, h⟩ k) else 0)
    (h4lo : ∀ (u : Fin 1) (l : Fin 128), A4 (ix2 u (lo l)) = if h : l.val < 16 then b2 (ix1 ⟨l.val, h⟩) else 0)
    (h4hi : ∀ (u : Fin 1) (l : Fin 128), A4 (ix2 u (hi l)) = if h : l.val < 16 then b3 (ix1 ⟨l.val, h⟩) else 0)
    (r : Fin 8192) (q : Fin 1024) (b : Fin 2) (l : Fin 4096) (hr : r.val = 4096 * b.val + l.val) :
    rowVal A0 A1 A2 A3 A4 r q = G x W1 b1 W2 b2 W3 b3 (ix3 b l q) := by
  have hx : ∀ k : Fin 1024, A0 (ix2 r k) = x (ix3 b l k) := fun k => h0 r k b l hr
  have e1 : (∑ k : Fin 1024, A0 (ix2 r k) * A1 (ix2 k q)) + A2 (ix2 (0 : Fin 1) q) = proj x W1 b1 b l q := by
    unfold proj
    refine congrArg₂ (fun s t : EReal => s + t) (Finset.sum_congr rfl fun k _ => ?_) (h2 0 q)
    rw [hx k, h1 k q]
  show (A0 (ix2 r q) * softplus ((∑ k : Fin 1024, A0 (ix2 r k) * A1 (ix2 k q)) + A2 (ix2 (0 : Fin 1) q)))
      * (∑ l' : Fin 128, ((∑ k : Fin 1024, A0 (ix2 r k) * A3 (ix2 k (lo l'))) + A4 (ix2 (0 : Fin 1) (lo l')))
          * ((∑ k : Fin 1024, A0 (ix2 r k) * A3 (ix2 k (hi l'))) + A4 (ix2 (0 : Fin 1) (hi l'))))
    = (x (ix3 b l q) * softplus (proj x W1 b1 b l q)) * ∑ n : Fin 16, proj x W3 b3 b l n * proj x W2 b2 b l n
  refine congrArg₂ (fun s t : EReal => s * t) (congrArg₂ (fun s t : EReal => s * softplus t) (hx q) e1) ?_
  refine (Finset.sum_congr rfl fun l' _ => congrArg₂ (fun s t : EReal => s * t)
    (half_apply x W2 b2 (fun k => A0 (ix2 r k)) (fun k => A3 (ix2 k (lo l'))) (A4 (ix2 (0 : Fin 1) (lo l'))) b l l'.val hx
      (fun k => h3lo k l') (h4lo 0 l'))
    (half_apply x W3 b3 (fun k => A0 (ix2 r k)) (fun k => A3 (ix2 k (hi l'))) (A4 (ix2 (0 : Fin 1) (hi l'))) b l l'.val hx
      (fun k => h3hi k l') (h4hi 0 l'))).trans ?_
  exact lanes_sum (fun n => proj x W2 b2 b l n) (fun n => proj x W3 b3 b l n)

end S6Spec.Row

end
-- ==== Proof.Tail.lean ====
/-
  What the kernel program leaves in its result buffer and in its argument arrays.

  After the region the program runs one operation: it recasts the last window's array, of extent [8192, 1024], to the
  result's extent [2, 4096, 1024]. A recast keeps row-major positions, and `(b, l, e)` in [2, 4096, 1024] sits at
  `((b · 4096 + l) · 1024 + e)`, the position of `(4096 b + l, e)` in [8192, 1024]. The result buffer is no window's
  array, so the run's post states it at the valuation the operations after the region compute; that array itself is
  read there at what the region leaves. The eight argument arrays are never written: they end as launched.
-/
import proofs.«137741_j25907242729655_2_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- Row-major position: entry `(b, l, e)` of extent [2, 4096, 1024] and entry `(4096 b + l, e)` of extent [8192, 1024]
    are the same position. -/
theorem pos_eq (b : Fin 2) (l : Fin 4096) (e : Fin 1024) (hlt : 4096 * b.val + l.val < 8192) :
    (S8192x1024.rowMajor (ix2 (⟨4096 * b.val + l.val, hlt⟩ : Fin 8192) e)).val = (S2x4096x1024.rowMajor (ix3 b l e)).val := by
  rw [Shape.rowMajor_val_two, Shape.rowMajor_val_three]
  show (4096 * b.val + l.val) * 1024 + e.val = (b.val * 4096 + l.val) * 1024 + e.val
  omega

/-- The result buffer after the program: the one operation after the region recasts the last window's array,
    [8192, 1024], to [2, 4096, 1024], so entry `(b, l, e)` of the result is entry `(4096 b + l, e)` of that array as the
    region leaves it. -/
theorem result_apply (r : PUnit × MemSt nD τ sig (Elt Ideal))
    (h : Pipeline.FramePost cfgs (dats m) 0 (Pipeline.afterTail₀ cfgs (dats m) 0 (V0 m) [hostOps1]) r) (c : Dev nD)
    (b : Fin 2) (l : Fin 4096) (e : Fin 1024) :
    (r.2.mem ((c.tc : Thread nD τ).loc main_v21) : S2x4096x1024.Idx → EReal) (ix3 b l e)
      = ((dats m 0 c).arrAt 5 cfg0.N : S8192x1024.Idx → EReal) (ix2 ⟨4096 * b.val + l.val, by have := b.isLt; have := l.isLt; omega⟩ e) := by
  rw [(h c).2 main_v21 (Pipeline.mem_restRefs_of main_v21 (by decide) (by decide))]
  unfold Pipeline.afterTail₀
  show StableHlo.after hostOps1 _ (Proc.devRef .tc main_v21) _ = _
  after_results
  have e5 : (Pipeline.withArrays (cfgs 0).spec c (V0 m c) (fun w => (dats m 0 c).arrAt w (cfgs 0).N) (Proc.devRef .tc main_v20)
        : S8192x1024.Idx → EReal)
      = (dats m 0 c).arrAt 5 cfg0.N := Pipeline.withArrays_arr spec0 launch0.win.arr_inj c _ _ 5
  show shapeCast S2x4096x1024 (Pipeline.withArrays (cfgs 0).spec c (V0 m c) (fun w => (dats m 0 c).arrAt w (cfgs 0).N)
      (Proc.devRef .tc main_v20) : S8192x1024.Idx → EReal) shapeCasts_S8192x1024_S2x4096x1024 (ix3 b l e) = _
  exact (shapeCast_apply _ shapeCasts_S8192x1024_S2x4096x1024 (ix3 b l e) _ (pos_eq b l e _)).trans (congrFun e5 _)

/-- The eight argument arrays end as launched: no window stages them and no operation around the region writes them. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩

end Cert.KernelIdeal.Tail

end
-- ==== Proof.KernelValue.lean ====
/-
  The kernel program's result, as a function of its arguments.

  The last host operation recasts the region's [8192, 1024] output as [2, 4096, 1024]: entry `(b, l, e)` of the result
  is entry `(4096·b + l, e)` of that output, which is `S6Spec.rowVal` of the five staged arrays at that row and column
  (the eight written-back blocks cover the output). The staged arrays are the arguments re-laid — the input's two leading
  axes merged, `W1` transposed, `W2` and `W3` transposed and set side by side into a zero array of 256 lanes, the
  biases likewise — and on arrays laid out so a row of `rowVal` is a row of `S6Spec.G`: the padding lanes contribute
  products of zeros.
-/
import proofs.«137741_j25907242729655_2_alg».proof.Proof.Gen.KernelIdeal.Frame
import proofs.«137741_j25907242729655_2_alg».proof.Proof.Spec
import proofs.«137741_j25907242729655_2_alg».proof.Proof.Array
import proofs.«137741_j25907242729655_2_alg».proof.Proof.Operands
import proofs.«137741_j25907242729655_2_alg».proof.Proof.RowAlgebra
import proofs.«137741_j25907242729655_2_alg».proof.Proof.Tail

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array the kernel program ends with, on core `c`: `G` of the arguments as launched. -/
def result (c : Dev nD) : S2x4096x1024.Idx → EReal :=
  S6Spec.G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

/-- After the frame run the result buffer holds `result`. -/
theorem post_result (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v21) = result m c := by
  funext i
  obtain ⟨b, l, e, rfl⟩ : ∃ (b : Fin 2) (l : Fin 4096) (e : Fin 1024), i = ix3 b l e := ⟨i 0, i 1, i 2, eq_ix3 i⟩
  refine (Tail.result_apply m r h c b l e).trans ?_
  rw [Array.final m c]
  exact S6Spec.Row.rowVal_eq_G _ _ _ _ _ _ _
    (V m c main_v0) (V m c main_v2) (V m c main_v3) (V m c main_v12) (V m c main_v19)
    (fun r k b l hr => Operands.v0_apply m c r k b l hr) (fun k e => Operands.v2_apply m c k e)
    (fun u e => Operands.v3_apply m c u e)
    (fun k l => Operands.v12_lo_apply m c k l) (fun k l => Operands.v12_hi_apply m c k l)
    (fun u l => Operands.v19_lo_apply m c u l) (fun u l => Operands.v19_hi_apply m c u l)
    _ e b l rfl

/-- The kernel program's run: every weakly fair execution terminates with the result buffer at `result` and the
    arguments unchanged. -/
theorem run : θ_run defs (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨post_result m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KernelValue

end
-- ==== Proof.RefIsSpec.lean ====
/-
  The reference program computes the specification function.

  Stage by stage, at an index `(b, l, e)` of the result: each of the three `dot_general`s followed by its broadcast
  bias is one projection `proj x W β (b, l) n = ∑ₖ x (b, l, k) · W (n, k) + β n`; the called function is `softplus` of
  the first projection (its guard `z − 0 ≠ z − 0` never fires on the extended reals); the sum over the sixteen
  lanes starts from the zero word, which is `0`; and the two broadcasts of that sum read it back at `(b, l)`.
  The product is grouped as the specification groups it, so nothing is reassociated.
-/
import proofs.«137741_j25907242729655_2_alg».proof.Proof.Gen.ReferenceIdeal.Read
import proofs.«137741_j25907242729655_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.SL.Sem

/-! ### Where each stage reads its operands, in coordinates -/

/-- The row of the input a 16-wide projection contracts, column `k`. -/
theorem lidx_v0 (b : Fin 2) (l : Fin 4096) (n : Fin 16) (k : Fin 1024) :
    Read.lidx_main_v0 (ix3 b l n) k = ix3 b l k :=
  funext fun a => Fin.ext (by match a with | ⟨0, _⟩ => rfl | ⟨1, _⟩ => rfl | ⟨2, _⟩ => rfl)

/-- The row `n` of the weight matrix, column `k`. -/
theorem ridx_v0 (b : Fin 2) (l : Fin 4096) (n : Fin 16) (k : Fin 1024) :
    Read.ridx_main_v0 (ix3 b l n) k = ix2 n k :=
  funext fun a => Fin.ext (by match a with | ⟨0, _⟩ => rfl | ⟨1, _⟩ => rfl)

/-- The two broadcasts of a 16-long bias read it at `n`. -/
theorem bidx_v2 (b : Fin 2) (l : Fin 4096) (n : Fin 16) :
    Read.idx_main_v1 (Read.idx_main_v2 (ix3 b l n)) = ix1 n :=
  funext fun a => Fin.ext (by match a with | ⟨0, _⟩ => rfl)

theorem lidx_v4 (b : Fin 2) (l : Fin 4096) (n : Fin 16) (k : Fin 1024) :
    Read.lidx_main_v4 (ix3 b l n) k = ix3 b l k :=
  funext fun a => Fin.ext (by match a with | ⟨0, _⟩ => rfl | ⟨1, _⟩ => rfl | ⟨2, _⟩ => rfl)

theorem ridx_v4 (b : Fin 2) (l : Fin 4096) (n : Fin 16) (k : Fin 1024) :
    Read.ridx_main_v4 (ix3 b l n) k = ix2 n k :=
  funext fun a => Fin.ext (by match a with | ⟨0, _⟩ => rfl | ⟨1, _⟩ => rfl)

theorem bidx_v6 (b : Fin 2) (l : Fin 4096) (n : Fin 16) :
    Read.idx_main_v5 (Read.idx_main_v6 (ix3 b l n)) = ix1 n :=
  funext fun a => Fin.ext (by match a with | ⟨0, _⟩ => rfl)

theorem lidx_v8 (b : Fin 2) (l : Fin 4096) (e : Fin 1024) (k : Fin 1024) :
    Read.lidx_main_v8 (ix3 b l e) k = ix3 b l k :=
  funext fun a => Fin.ext (by match a with | ⟨0, _⟩ => rfl | ⟨1, _⟩ => rfl | ⟨2, _⟩ => rfl)

theorem ridx_v8 (b : Fin 2) (l : Fin 4096) (e : Fin 1024) (k : Fin 1024) :
    Read.ridx_main_v8 (ix3 b l e) k = ix2 e k :=
  funext fun a => Fin.ext (by match a with | ⟨0, _⟩ => rfl | ⟨1, _⟩ => rfl)

theorem bidx_v10 (b : Fin 2) (l : Fin 4096) (e : Fin 1024) :
    Read.idx_main_v9 (Read.idx_main_v10 (ix3 b l e)) = ix1 e :=
  funext fun a => Fin.ext (by match a with | ⟨0, _⟩ => rfl)

/-- Lane `n` of the summed axis at `(b, l)`. -/
theorem idx_v14 (b : Fin 2) (l : Fin 4096) (n : Fin 16) :
    Read.idx_main_v14 (ix2 b l) n = ix3 b l n :=
  funext fun a => Fin.ext (by match a with | ⟨0, _⟩ => rfl | ⟨1, _⟩ => rfl | ⟨2, _⟩ => rfl)

/-- The two broadcasts of the lane sum read it at `(b, l)`. -/
theorem bidx_v17 (b : Fin 2) (l : Fin 4096) (e : Fin 1024) :
    Read.idx_main_v16 (Read.idx_main_v17 (ix3 b l e)) = ix2 b l :=
  funext fun a => Fin.ext (by match a with | ⟨0, _⟩ => rfl | ⟨1, _⟩ => rfl)

/-! ### The three projections -/

/-- `dot_general` with the second weight matrix, plus its bias: the projection by `W2`. -/
theorem v3_eq (x0 : (⟨S2x4096x1024, .f32⟩ : BufTy).Contents (Elt Ideal)) (x3 : (⟨S16x1024, .f32⟩ : BufTy).Contents (Elt Ideal))
    (x4 : (⟨S16, .f32⟩ : BufTy).Contents (Elt Ideal)) (b : Fin 2) (l : Fin 4096) (n : Fin 16) :
    Read.val_main_v3 (F := Ideal) x0 x3 x4 (ix3 b l n) = S6Spec.proj x0 x3 x4 b l n := by
  rw [Read.val_main_v3_apply, Read.val_main_v0_apply, Read.val_main_v2_apply, Read.val_main_v1_apply, bidx_v2]
  simp only [lidx_v0, ridx_v0]
  rfl

/-- `dot_general` with the third weight matrix, plus its bias: the projection by `W3`. -/
theorem v7_eq (x0 : (⟨S2x4096x1024, .f32⟩ : BufTy).Contents (Elt Ideal)) (x5 : (⟨S16x1024, .f32⟩ : BufTy).Contents (Elt Ideal))
    (x6 : (⟨S16, .f32⟩ : BufTy).Contents (Elt Ideal)) (b : Fin 2) (l : Fin 4096) (n : Fin 16) :
    Read.val_main_v7 (F := Ideal) x0 x5 x6 (ix3 b l n) = S6Spec.proj x0 x5 x6 b l n := by
  rw [Read.val_main_v7_apply, Read.val_main_v4_apply, Read.val_main_v6_apply, Read.val_main_v5_apply, bidx_v6]
  simp only [lidx_v4, ridx_v4]
  rfl

/-- `dot_general` with the first weight matrix, plus its bias: the projection by `W1`. -/
theorem v11_eq (x0 : (⟨S2x4096x1024, .f32⟩ : BufTy).Contents (Elt Ideal)) (x1 : (⟨S1024x1024, .f32⟩ : BufTy).Contents (Elt Ideal))
    (x2 : (⟨S1024, .f32⟩ : BufTy).Contents (Elt Ideal)) (b : Fin 2) (l : Fin 4096) (e : Fin 1024) :
    Read.val_main_v11 (F := Ideal) x0 x1 x2 (ix3 b l e) = S6Spec.proj x0 x1 x2 b l e := by
  rw [Read.val_main_v11_apply, Read.val_main_v8_apply, Read.val_main_v10_apply, Read.val_main_v9_apply, bidx_v10]
  simp only [lidx_v8, ridx_v8]
  rfl

/-! ### The called function is softplus of the first projection -/

theorem v12_eq (x0 : (⟨S2x4096x1024, .f32⟩ : BufTy).Contents (Elt Ideal)) (x1 : (⟨S1024x1024, .f32⟩ : BufTy).Contents (Elt Ideal))
    (x2 : (⟨S1024, .f32⟩ : BufTy).Contents (Elt Ideal)) (b : Fin 2) (l : Fin 4096) (e : Fin 1024) :
    Read.val_main_v12 (F := Ideal) x0 x1 x2 (ix3 b l e) = S6Spec.softplus (S6Spec.proj x0 x1 x2 b l e) := by
  rw [Read.val_main_v12_apply, Read.val_main_call0_v4_apply, Read.val_main_call0_v6_apply,
    Read.val_main_call0_v11_apply, Read.val_main_call0_v1_apply, Read.val_main_call0_v10_apply,
    Read.val_main_call0_v9_apply, Read.val_main_call0_v8_apply, Read.val_main_call0_v7_apply,
    Read.val_main_call0_v3_apply, Read.val_main_call0_v0_apply, Read.val_main_call0_v2_apply,
    Read.val_main_call0_v5_apply, Read.val_main_call0_cst_apply, v11_eq]
  exact S6Spec.softplus_neg _

/-! ### The sum over the sixteen lanes -/

theorem v14_eq (x0 : (⟨S2x4096x1024, .f32⟩ : BufTy).Contents (Elt Ideal)) (x3 : (⟨S16x1024, .f32⟩ : BufTy).Contents (Elt Ideal))
    (x4 : (⟨S16, .f32⟩ : BufTy).Contents (Elt Ideal)) (x5 : (⟨S16x1024, .f32⟩ : BufTy).Contents (Elt Ideal))
    (x6 : (⟨S16, .f32⟩ : BufTy).Contents (Elt Ideal)) (b : Fin 2) (l : Fin 4096) :
    Read.val_main_v14 (F := Ideal) x0 x3 x4 x5 x6 (ix2 b l)
      = ∑ n : Fin 16, S6Spec.proj x0 x5 x6 b l n * S6Spec.proj x0 x3 x4 b l n := by
  rw [Read.val_main_v14_apply, Read.val_main_cst_apply, Ideal.ofBits_def, Ideal.ofBits_zero_f32, zero_add]
  refine Finset.sum_congr rfl fun n _ => ?_
  rw [idx_v14, Read.val_main_v13_apply, v7_eq, v3_eq]
  rfl

/-! ### The result stage -/

/-- The reference program's result is the specification function of its seven arguments. -/
theorem ref_eq (x0 : (⟨S2x4096x1024, .f32⟩ : BufTy).Contents (Elt Ideal)) (x1 : (⟨S1024x1024, .f32⟩ : BufTy).Contents (Elt Ideal))
    (x2 : (⟨S1024, .f32⟩ : BufTy).Contents (Elt Ideal)) (x3 : (⟨S16x1024, .f32⟩ : BufTy).Contents (Elt Ideal))
    (x4 : (⟨S16, .f32⟩ : BufTy).Contents (Elt Ideal)) (x5 : (⟨S16x1024, .f32⟩ : BufTy).Contents (Elt Ideal))
    (x6 : (⟨S16, .f32⟩ : BufTy).Contents (Elt Ideal)) :
    Read.val_main_v18 (F := Ideal) x0 x1 x2 x3 x4 x5 x6 = S6Spec.G x0 x1 x2 x3 x4 x5 x6 := by
  funext i
  obtain ⟨b, l, e, rfl⟩ : ∃ (b : Fin 2) (l : Fin 4096) (e : Fin 1024), i = ix3 b l e := ⟨i 0, i 1, i 2, eq_ix3 i⟩
  rw [Read.val_main_v18_apply, Read.val_main_v15_apply, Read.val_main_v17_apply, Read.val_main_v16_apply,
    bidx_v17, v14_eq, v12_eq]
  rfl

end Cert.ReferenceIdeal.RefValue

end
-- ==== Proof.lean ====
/-
  The certificate: the kernel program and the reference compute one function on the extended reals.

  Both compute, at `(b, l, e)`, `x · softplus (x·W1ᵀ + b1) · ∑ₙ (x·W3ᵀ + b3)ₙ · (x·W2ᵀ + b2)ₙ` (`S6Spec.G`). The reference
  does so literally (`RefIsSpec`: its last stage read index by index). The kernel lays `W2ᵀ` and `W3ᵀ` side by side
  into a zero array of 256 lanes, forms one product with it, multiplies the two 128-lane halves lane by lane and sums
  over all 128 lanes; the 112 padding lanes of each half hold `∑ₖ xₖ·0 + 0 = 0`, so they add `0·0` to the sum
  (`RowAlgebra`), and the remaining sixteen terms are the reference's with the two factors in the other order. A change
  of float format is the identity on the extended reals, and neither side's guard `z − 0 ≠ z − 0` can fire. No step uses
  that the inputs are finite: `a·0 = 0` holds for every extended real.
  The three frames are the generated ones (the reference's is its generated run with the result dropped); the
  idealization rewrote no operation, so `preserves` is trivial.
-/
import proofs.«137741_j25907242729655_2_alg».proof.Defs
import proofs.«137741_j25907242729655_2_alg».proof.Proof.Gen.Kernel
import proofs.«137741_j25907242729655_2_alg».proof.Proof.Gen.Kernel.Skeleton
import proofs.«137741_j25907242729655_2_alg».proof.Proof.Gen.Kernel.Launch
import proofs.«137741_j25907242729655_2_alg».proof.Proof.Gen.Kernel.Points
import proofs.«137741_j25907242729655_2_alg».proof.Proof.Gen.Kernel.Frame
import proofs.«137741_j25907242729655_2_alg».proof.Proof.Gen.KernelIdeal
import proofs.«137741_j25907242729655_2_alg».proof.Proof.Gen.KernelIdeal.Skeleton
import proofs.«137741_j25907242729655_2_alg».proof.Proof.Gen.KernelIdeal.Launch
import proofs.«137741_j25907242729655_2_alg».proof.Proof.Gen.KernelIdeal.Points
import proofs.«137741_j25907242729655_2_alg».proof.Proof.Gen.KernelIdeal.Frame
import proofs.«137741_j25907242729655_2_alg».proof.Proof.Gen.ReferenceIdeal
import proofs.«137741_j25907242729655_2_alg».proof.Proof.Gen.ReferenceIdeal.Run
import proofs.«137741_j25907242729655_2_alg».proof.Proof.Gen.ReferenceIdeal.Read
import proofs.«137741_j25907242729655_2_alg».proof.Proof.Gen.Pre_finite_inputs
import proofs.«137741_j25907242729655_2_alg».proof.Proof.KernelValue
import proofs.«137741_j25907242729655_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at `S6Spec.G` of the arguments; the memories agree on the arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2.1]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
